-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x10000 : Shape := ⟨2, ![10000, 10000]⟩
abbrev S10000x128 : Shape := ⟨2, ![10000, 128]⟩
abbrev S128x128 : Shape := ⟨2, ![128, 128]⟩
abbrev S128 : Shape := ⟨1, ![128]⟩
abbrev S_ : Shape := ⟨0, ![]⟩

class Facts : Prop where
  bcast_S_S10000x10000 : S_.BroadcastsInDim S10000x10000 (![] : Fin 0 → Fin S10000x10000.rank)
  reducesTo_S10000x10000_S_d0_1 : S10000x10000.ReducesTo [0, 1] S_
  h_S_ : 0 < S_.numel
  bcast_S_S10000x128 : S_.BroadcastsInDim S10000x128 (![] : Fin 0 → Fin S10000x128.rank)
  reducesTo_S10000x128_S_d0_1 : S10000x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128x128 .f32) (main_arg5 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S10000x10000 .f32) (main_arg1 : FVec F S10000x128 .f32) (main_arg2 : FVec F S128x128 .f32) (main_arg3 : FVec F S128 .f32) (main_arg4 : FVec F S128x128 .f32) (main_arg5 : FVec F S128 .f32) : IVec S_ 1 :=
  let main_v0 : FVec F S10000x10000 .f32 := Host.absf main_arg0
  let main_cst : FVec F S_ .f32 := constant S_ .f32 0x7F800000#32
  let main_v1 : FVec F S10000x10000 .f32 := broadcastInDim S10000x10000 ![] bcast_S_S10000x10000 main_cst
  let main_v2 : IVec S10000x10000 1 := cmpf .olt main_v0 main_v1
  let main_c : IVec S_ 1 := constantI S_ 1 1#1
  let main_v3 : IVec S_ 1 := (fun x v => Host.reduce IntOp.andi x v reducesTo_S10000x10000_S_d0_1 h_S_) main_v2 main_c
  let main_v4 : FVec F S10000x128 .f32 := Host.absf main_arg1
  let main_cst_0 : FVec F S_ .f32 := constant S_ .f32 0x7F800000#32
  let main_v5 : FVec F S10000x128 .f32 := broadcastInDim S10000x128 ![] bcast_S_S10000x128 main_cst_0
  let main_v6 : IVec S10000x128 1 := cmpf .olt main_v4 main_v5
  let main_c_1 : IVec S_ 1 := constantI S_ 1 1#1
  let main_v7 : IVec S_ 1 := (fun x v => Host.reduce IntOp.andi x v reducesTo_S10000x128_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_v13 main_v16
-- ==== Kernel.lean ====
abbrev S10000x10000 : Shape := ⟨2, ![10000, 10000]⟩
abbrev S10000x128 : Shape := ⟨2, ![10000, 128]⟩
abbrev S128x128 : Shape := ⟨2, ![128, 128]⟩
abbrev S128 : Shape := ⟨1, ![128]⟩
abbrev S1x128 : Shape := ⟨2, ![1, 128]⟩
abbrev S400x10000 : Shape := ⟨2, ![400, 10000]⟩
abbrev S400x128 : Shape := ⟨2, ![400, 128]⟩

abbrev nBuf : Space → Nat
  | .hbm => 9
  | .vmem => 11
  | .smem => 0
  | _ => 0

abbrev bufTy : (tb : Table) → Fin (tcTables nBuf tb) → BufTy
  | .hbm, ⟨0, _⟩ => ⟨S10000x10000, .f32⟩
  | .hbm, ⟨1, _⟩ => ⟨S10000x128, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S1x128, .f32⟩
  | .hbm, ⟨7, _⟩ => ⟨S1x128, .f32⟩
  | .hbm, ⟨8, _⟩ => ⟨S10000x128, .f32⟩
  | .local _ .vmem, ⟨0, _⟩ => ⟨S10000x128, .f32⟩
  | .local _ .vmem, ⟨1, _⟩ => ⟨S128x128, .f32⟩
  | .local _ .vmem, ⟨2, _⟩ => ⟨S1x128, .f32⟩
  | .local _ .vmem, ⟨3, _⟩ => ⟨S128x128, .f32⟩
  | .local _ .vmem, ⟨4, _⟩ => ⟨S1x128, .f32⟩
  | .local _ .vmem, ⟨5, _⟩ => ⟨S400x10000, .f32⟩
  | .local _ .vmem, ⟨6, _⟩ => ⟨S400x10000, .f32⟩
  | .local _ .vmem, ⟨7, _⟩ => ⟨S400x128, .f32⟩
  | .local _ .vmem, ⟨8, _⟩ => ⟨S400x128, .f32⟩
  | .local _ .vmem, ⟨9, _⟩ => ⟨S10000x128, .f32⟩
  | .local _ .vmem, ⟨10, _⟩ => ⟨S10000x128, .f32⟩
  | _, _ => ⟨S10000x10000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg5_1 : Ref sig .tc := ⟨.vmem, 6, rfl⟩
abbrev cc0_stg6_0 : Ref sig .tc := ⟨.vmem, 7, rfl⟩
abbrev cc0_stg6_1 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem5_1 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![50], ![false]⟩

def k0_cond2 (i : grid0.Coords) : BitVec 1 :=
  let arg0 : BitVec 32 := BitVec.ofNat 32 (i 0).val
  let c25_i32 : BitVec 32 := 25#32
  let v3 : BitVec 1 := Scalar.cmpi .slt arg0 c25_i32
  let v4 : BitVec 32 := Scalar.extui v3
  let c0_i32_1 : BitVec 32 := 0#32
  let v5 : BitVec 1 := Scalar.cmpi .ne v4 c0_i32_1
  v5

def k0_off1 (i : grid0.Coords) : Fin 2 → Nat :=
  let arg0 : BitVec 32 := BitVec.ofNat 32 (i 0).val
  let c400_i32 : BitVec 32 := 400#32
  let v20 : BitVec 32 := Scalar.muli arg0 c400_i32
  let v21 : Index := Scalar.indexCast v20
  let c0_13 : Index := 0#32
  ![v21.toNat, 0]
def k0_cond3 (i : grid0.Coords) : BitVec 1 :=
  let arg0 : BitVec 32 := BitVec.ofNat 32 (i 0).val
  let c25_i32_2 : BitVec 32 := 25#32
  let v6 : BitVec 1 := Scalar.cmpi .sge arg0 c25_i32_2
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c25_i32 : BitVec 32 := 25#32
  let v0 : BitVec 32 := Scalar.divsi arg0 c25_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c25_i32 c0_i32_1
  let v7 : BitVec 32 := Scalar.extui v6
  let c0_i32_2 : BitVec 32 := 0#32
  let v8 : BitVec 1 := Scalar.cmpi .slt c25_i32 c0_i32_2
  let v9 : BitVec 32 := Scalar.extui v8
  let v10 : BitVec 32 := Scalar.subi v7 v9
  let v11 : BitVec 1 := Scalar.cmpi .ne v5 v10
  let v12 : BitVec 32 := Scalar.remsi arg0 c25_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.subi c1_i32_4 v16
  let c25_i32_5 : BitVec 32 := 25#32
  let c0_i32_6 : BitVec 32 := 0#32
  let v18 : BitVec 1 := Scalar.cmpi .eq c25_i32_5 c0_i32_6
  let c1_i32_7 : BitVec 32 := 1#32
  let v19 : BitVec 32 := Scalar.select v18 c1_i32_7 c25_i32_5
  let v20 : BitVec 32 := Scalar.remsi arg0 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let v28 : BitVec 32 := Scalar.muli v17 v27
  let c25_i32_11 : BitVec 32 := 25#32
  let v29 : BitVec 32 := Scalar.divsi arg0 c25_i32_11
  let c0_i32_12 : BitVec 32 := 0#32
  let v30 : BitVec 1 := Scalar.cmpi .sgt arg0 c0_i32_12
  let v31 : BitVec 32 := Scalar.extui v30
  let c0_i32_13 : BitVec 32 := 0#32
  let v32 : BitVec 1 := Scalar.cmpi .slt arg0 c0_i32_13
  let v33 : BitVec 32 := Scalar.extui v32
  let v34 : BitVec 32 := Scalar.subi v31 v33
  let c0_i32_14 : BitVec 32 := 0#32
  let v35 : BitVec 1 := Scalar.cmpi .sgt c25_i32_11 c0_i32_14
  let v36 : BitVec 32 := Scalar.extui v35
  let c0_i32_15 : BitVec 32 := 0#32
  let v37 : BitVec 1 := Scalar.cmpi .slt c25_i32_11 c0_i32_15
  let v38 : BitVec 32 := Scalar.extui v37
  let v39 : BitVec 32 := Scalar.subi v36 v38
  let v40 : BitVec 1 := Scalar.cmpi .ne v34 v39
  let v41 : BitVec 32 := Scalar.remsi arg0 c25_i32_11
  let c0_i32_16 : BitVec 32 := 0#32
  let v42 : BitVec 1 := Scalar.cmpi .ne v41 c0_i32_16
  let v43 : BitVec 1 := Scalar.andi v40 v42
  let c1_i32_17 : BitVec 32 := 1#32
  let v44 : BitVec 32 := Scalar.subi v29 c1_i32_17
  let v45 : BitVec 32 := Scalar.select v43 v44 v29
  let c49_i32 : BitVec 32 := 49#32
  let v46 : BitVec 32 := Scalar.subi c49_i32 arg0
  let v47 : BitVec 32 := Scalar.muli v45 v46
  let v48 : BitVec 32 := Scalar.addi v28 v47
  let c0_i32_18 : BitVec 32 := 0#32
  let c0_i32_19 : BitVec 32 := 0#32
  ![v48.toNat, c0_i32_18.toNat]

def cc0_transform_6 (i : grid0.Coords) : Fin 2 → Nat :=
  let arg0 : BitVec 32 := BitVec.ofNat 32 (i 0).val
  let c25_i32 : BitVec 32 := 25#32
  let v0 : BitVec 32 := Scalar.divsi arg0 c25_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c25_i32 c0_i32_1
  let v7 : BitVec 32 := Scalar.extui v6
  let c0_i32_2 : BitVec 32 := 0#32
  let v8 : BitVec 1 := Scalar.cmpi .slt c25_i32 c0_i32_2
  let v9 : BitVec 32 := Scalar.extui v8
  let v10 : BitVec 32 := Scalar.subi v7 v9
  let v11 : BitVec 1 := Scalar.cmpi .ne v5 v10
  let v12 : BitVec 32 := Scalar.remsi arg0 c25_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.subi c1_i32_4 v16
  let c24_i32 : BitVec 32 := 24#32
  let v18 : BitVec 32 := Scalar.muli v17 c24_i32
  let c25_i32_5 : BitVec 32 := 25#32
  let v19 : BitVec 32 := Scalar.divsi arg0 c25_i32_5
  let c0_i32_6 : BitVec 32 := 0#32
  let v20 : BitVec 1 := Scalar.cmpi .sgt arg0 c0_i32_6
  let v21 : BitVec 32 := Scalar.extui v20
  let c0_i32_7 : BitVec 32 := 0#32
  let v22 : BitVec 1 := Scalar.cmpi .slt arg0 c0_i32_7
  let v23 : BitVec 32 := Scalar.extui v22
  let v24 : BitVec 32 := Scalar.subi v21 v23
  let c0_i32_8 : BitVec 32 := 0#32
  let v25 : BitVec 1 := Scalar.cmpi .sgt c25_i32_5 c0_i32_8
  let v26 : BitVec 32 := Scalar.extui v25
  let c0_i32_9 : BitVec 32 := 0#32
  let v27 : BitVec 1 := Scalar.cmpi .slt c25_i32_5 c0_i32_9
  let v28 : BitVec 32 := Scalar.extui v27
  let v29 : BitVec 32 := Scalar.subi v26 v28
  let v30 : BitVec 1 := Scalar.cmpi .ne v24 v29
  let v31 : BitVec 32 := Scalar.remsi arg0 c25_i32_5
  let c0_i32_10 : BitVec 32 := 0#32
  let v32 : BitVec 1 := Scalar.cmpi .ne v31 c0_i32_10
  let v33 : BitVec 1 := Scalar.andi v30 v32
  let c1_i32_11 : BitVec 32 := 1#32
  let v34 : BitVec 32 := Scalar.subi v19 c1_i32_11
  let v35 : BitVec 32 := Scalar.select v33 v34 v19
  let c49_i32 : BitVec 32 := 49#32
  let v36 : BitVec 32 := Scalar.subi c49_i32 arg0
  let v37 : BitVec 32 := Scalar.muli v35 v36
  let v38 : BitVec 32 := Scalar.addi v18 v37
  let c0_i32_12 : BitVec 32 := 0#32
  let c0_i32_13 : BitVec 32 := 0#32
  ![v38.toNat, c0_i32_12.toNat]

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S400x10000 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S400x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  shapeCasts_S128_S1x128 : S128.ShapeCasts S1x128
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  shapeCasts_S10000x128_S10000x128 : S10000x128.ShapeCasts S10000x128
  inb_S400x10000_S400x10000_0_0 : ∀ a, (![0, 0] : Fin 2 → Nat) a + S400x10000.size a ≤ S400x10000.size a
  h_S400x10000 : 0 < S400x10000.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S400x128 : S1x128.Broadcasts S400x128
  h_S400x128 : 0 < S400x128.numel
  shapeCasts_S400x128_S400x128 : S400x128.ShapeCasts S400x128
  inb_S400x128_S400x128_0_0 : ∀ a, (![0, 0] : Fin 2 → Nat) a + S400x128.size a ≤ S400x128.size a
  dot_S10000x128_S128x128_S10000x128_1_0_0_1_n_n_wf : DotDims.WF S10000x128 S128x128 S10000x128 [1] [0] [0] [1] [] []
  dot_S400x10000_S10000x128_S400x128_1_0_0_1_n_n_wf : DotDims.WF S400x10000 S10000x128 S400x128 [1] [0] [0] [1] [] []
  dot_S400x128_S128x128_S400x128_1_0_0_1_n_n_wf : DotDims.WF S400x128 S128x128 S400x128 [1] [0] [0] [1] [] []
  hrank0 : 0 < grid0.rank
  k0_off1_inb : ∀ i : grid0.Coords, ∀ (k0_h2 : k0_cond2 i = 1#1), ∀ a, (k0_off1 i) a + S400x128.size a ≤ S10000x128.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S10000x128.size a
  hwx0_0 : ∀ i : grid0.Coords, EltTy.bits .f32 = 32 ∨ (Rect.block (s := S10000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S400x10000.size a ≤ S10000x10000.size a
  hwx0_5 : ∀ i : grid0.Coords, EltTy.bits .f32 = 32 ∨ (Rect.block (s := S10000x10000) S400x10000.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S400x128.size a ≤ S10000x128.size a
  hwx0_6 : ∀ i : grid0.Coords, EltTy.bits .f32 = 32 ∨ (Rect.block (s := S10000x128) S400x128.size (cc0_transform_6 i) (hinb0_6 i)).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S400x10000_S10000x128_S400x128_1_0_0_1_n_n : DotDims S400x10000 S10000x128 S400x128 where
  lhsContracting := [1]
  rhsContracting := [0]
  lhsNonContracting := [0]
  rhsNonContracting := [1]
  lhsBatch := []
  rhsBatch := []
  wf := dot_S400x10000_S10000x128_S400x128_1_0_0_1_n_n_wf
def dot_S400x128_S128x128_S400x128_1_0_0_1_n_n : DotDims S400x128 S128x128 S400x128 where
  lhsContracting := [1]
  rhsContracting := [0]
  lhsNonContracting := [0]
  rhsNonContracting := [1]
  lhsBatch := []
  rhsBatch := []
  wf := dot_S400x128_S128x128_S400x128_1_0_0_1_n_n_wf

abbrev win0_0 : Pipeline.Window sig grid0 :=
  Pipeline.Window.ofSpec (Memref.whole main_arg1) S10000x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg0) S400x10000.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v2) S400x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond3 i == 1#1) | ⟨_ + 7, h⟩ => absurd h (Nat.not_lt.2 (Nat.le_add_left _ _))

class Facts : Prop extends Facts₀ where

variable [Facts]
-- ==== ReferenceIdeal.lean ====
abbrev S10000x10000 : Shape := ⟨2, ![10000, 10000]⟩
abbrev S10000x128 : Shape := ⟨2, ![10000, 128]⟩
abbrev S128x128 : Shape := ⟨2, ![128, 128]⟩
abbrev S128 : Shape := ⟨1, ![128]⟩
abbrev S1x128 : Shape := ⟨2, ![1, 128]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S10000x10000, .f32⟩
  | .hbm, ⟨1, _⟩ => ⟨S10000x128, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S10000x128, .f32⟩
  | .hbm, ⟨7, _⟩ => ⟨S10000x128, .f32⟩
  | .hbm, ⟨8, _⟩ => ⟨S1x128, .f32⟩
  | .hbm, ⟨9, _⟩ => ⟨S10000x128, .f32⟩
  | .hbm, ⟨10, _⟩ => ⟨S10000x128, .f32⟩
  | .hbm, ⟨11, _⟩ => ⟨S_, .f32⟩
  | .hbm, ⟨12, _⟩ => ⟨S10000x128, .f32⟩
  | .hbm, ⟨13, _⟩ => ⟨S10000x128, .f32⟩
  | .hbm, ⟨14, _⟩ => ⟨S10000x128, .f32⟩
  | .hbm, ⟨15, _⟩ => ⟨S10000x128, .f32⟩
  | .hbm, ⟨16, _⟩ => ⟨S1x128, .f32⟩
  | .hbm, ⟨17, _⟩ => ⟨S10000x128, .f32⟩
  | .hbm, ⟨18, _⟩ => ⟨S10000x128, .f32⟩
  | _, _ => ⟨S10000x10000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S_S10000x128 : S_.BroadcastsInDim S10000x128 (![] : Fin 0 → Fin S10000x128.rank)
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf

class Facts : Prop extends Facts₀ where

variable [Facts]
-- ==== Proof.BCases.lean ====
/-
  The three phases of the two-layer graph convolution's grid, and what the body is handed at a point.

  The grid has 50 points. Point 0 computes the first support matrix `x · W1` into the first scratch; every
  point `t < 25` then fills rows `400 t … 400 t + 399` of the second scratch with
  `relu (g_t · s1 + b1) · W2` (`g_t` the `t`-th block of 400 rows of `g`); every point `t ≥ 25` writes
  the output block `g_u · s2 + b2`, `u = 49 - t`. The three conditionals of the body are decided here in closed
  form over the grid, together with where the output window is idle and where it is written back.
-/
import proofs.«141898_g57621281243476_cont_9to1c4b_629_17_alg».proof.Proof.Gen.Kernel.Frame
import proofs.«141898_g57621281243476_cont_9to1c4b_629_17_alg».proof.Proof.Gen.Kernel.Skeleton
import Idealize.ShloMosaic.Lib.Pipeline.Value
import Idealize.ShloMosaic.Lib.WritesUnit
import Idealize.ShloMosaic.Lib.ValueIdx

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The body's three conditions, decided over the grid -/

/-- The first conditional's condition: the grid coordinate is zero. -/
abbrev condA (i : grid0.Coords) : Prop :=
  (Scalar.cmpi .ne (Scalar.extui (Scalar.cmpi .eq (BitVec.ofNat 32 (i 0).val) 0#32)) 0#32) = 1#1
/-- The second conditional's condition: the grid coordinate is below 25. -/
abbrev condB (i : grid0.Coords) : Prop := k0_cond2 i = 1#1
/-- The third conditional's condition: the grid coordinate is at least 25. -/
abbrev condC (i : grid0.Coords) : Prop := k0_cond3 i = 1#1

theorem hcondA : ∀ t : Fin cfg0.N, condA (grid0.coords t) ↔ t.val = 0 :=
  (by decide +kernel : ∀ t : Fin grid0.N, condA (grid0.coords t) ↔ t.val = 0)
theorem hcondB : ∀ t : Fin cfg0.N, condB (grid0.coords t) ↔ t.val < 25 :=
  (by decide +kernel : ∀ t : Fin grid0.N, condB (grid0.coords t) ↔ t.val < 25)
theorem hcondC : ∀ t : Fin cfg0.N, condC (grid0.coords t) ↔ 25 ≤ t.val :=
  (by decide +kernel : ∀ t : Fin grid0.N, condC (grid0.coords t) ↔ 25 ≤ t.val)

/-- The row offset of the slice of the second scratch a point of the first phase fills: 400 times the point. -/
theorem off_eq : ∀ t : Fin cfg0.N, k0_off1 (grid0.coords t) = ![400 * t.val, 0] :=
  (by decide +kernel : ∀ t : Fin grid0.N, k0_off1 (grid0.coords t) = ![400 * t.val, 0])

/-! ## Where the windows are idle and where the output is written back -/

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
theorem live4 : ∀ t : Fin cfg0.N, cfg0.idle 4 (grid0.coords t) = false := by decide +kernel
theorem live5 : ∀ t : Fin cfg0.N, cfg0.idle 5 (grid0.coords t) = false := by decide +kernel
/-- In the first phase the output window is idle, -/
theorem idle6 : ∀ t : Fin cfg0.N, t.val < 25 → cfg0.idle 6 (grid0.coords t) = true := by decide +kernel
/-- and not written back; -/
theorem noFlush6 : ∀ t : Fin cfg0.N, t.val < 25 → (cfg0.win 6).flush t = false := by decide +kernel
/-- in the second phase it is live, -/
theorem live6 : ∀ t : Fin cfg0.N, 25 ≤ t.val → cfg0.idle 6 (grid0.coords t) = false := by decide +kernel
/-- and written back at every point. -/
theorem flush6 : ∀ t : Fin cfg0.N, 25 ≤ t.val → (cfg0.win 6).flush t = true := by decide +kernel

theorem hz2 : (![0, 0] : Fin 2 → Nat) = fun _ => 0 := funext fun a => by fin_cases a <;> rfl

/-! ## The memrefs the body is called with -/

abbrev ms0 (t : Fin cfg0.N) : Memref sig .tc .vmem S10000x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S128x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x128 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S128x128 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x128 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S400x10000 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S400x128 .f32 := win0_6.stage (cfg0.slots t 6)
abbrev hs6 (t : Fin cfg0.N) : (ms6 t).IsWhole := hstage0_6 ((cfg0.slots t 6).cast nbuf0_6)
/-- The two scratch operands: the first support matrix, and the second, filled 400 rows per point. -/
abbrev scA : Memref sig .tc .vmem S10000x128 .f32 := Memref.whole cc0_scratch0
abbrev scB : Memref sig .tc .vmem S10000x128 .f32 := Memref.whole cc0_scratch1

/-- The region invariant of the class with the two scratch operands as owned memrefs. -/
theorem PhiA_eq (c : Dev nD) :
    (Pipeline.ΦA spec0 c : sProp 𝕄)
      = iprop(iprop((∃ d, owns (c : Thread nD τ) scA fullShare d) ∗ (∃ d, owns (c : Thread nD τ) scB fullShare d)) ∗ (∃ r, prngReg c r)) := by
  unfold Pipeline.ΦA; rw [scopedRest0_eq]; simp only [scA, scB, owns_whole]; try rfl

end Cert.Kernel.Body

end
-- ==== Proof.BRunB.lean ====
/-
  The body at a point of the first phase after the first (0 < t < 25): the first and third conditionals fall
  through; the second loads the point's block of `g`, the first scratch, `b1` and `W2`, and stores
  `relu (g_t · s1 + b1) · W2` into its slice of the second scratch.
-/
import proofs.«141898_g57621281243476_cont_9to1c4b_629_17_alg».proof.Proof.BCases

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The pieces the body's one store leaves in the second scratch in this phase, with the proof that the body runs
    to its continuation holding the loaded buffers as they were and the second scratch with those pieces written. -/
noncomputable def runB (c : Dev nD) (i : grid0.Coords)
    (arg1 : Memref sig .tc .vmem S10000x128 .f32) (harg1 : arg1.IsWhole) (arg2 : Memref sig .tc .vmem S128x128 .f32) (harg2 : arg2.IsWhole)
    (arg3 : Memref sig .tc .vmem S1x128 .f32) (harg3 : arg3.IsWhole) (arg4 : Memref sig .tc .vmem S128x128 .f32) (harg4 : arg4.IsWhole)
    (arg5 : Memref sig .tc .vmem S1x128 .f32) (harg5 : arg5.IsWhole) (arg6 : Memref sig .tc .vmem S400x10000 .f32) (harg6 : arg6.IsWhole)
    (arg7 : Memref sig .tc .vmem S400x128 .f32) (harg7 : arg7.IsWhole) (arg8 : Memref sig .tc .vmem S10000x128 .f32) (harg8 : arg8.IsWhole)
    (arg9 : Memref sig .tc .vmem S10000x128 .f32) (harg9 : arg9.IsWhole)
    (hA : ¬condA i) (hB : condB i) (hC : ¬condC i)
    (b1 : Vec F S1x128 .f32) (w2 : Vec F S128x128 .f32) (g : Vec F S400x10000 .f32) (s1 s2 : Vec F S10000x128 .f32) :
    { LS : List (View.Piece (Elt F) S10000x128 .f32) //
      ∀ (E : Set ℕ) (K : PUnit → sProp 𝕄),
        iprop(owns (c : Thread nD τ) arg3 fullShare b1 ∗ owns (c : Thread nD τ) arg4 fullShare w2 ∗ owns (c : Thread nD τ) arg6 fullShare g
            ∗ owns (c : Thread nD τ) arg8 fullShare s1 ∗ owns (c : Thread nD τ) arg9 fullShare s2
            ∗ (iprop(owns (c : Thread nD τ) arg3 fullShare b1 ∗ owns (c : Thread nD τ) arg4 fullShare w2 ∗ owns (c : Thread nD τ) arg6 fullShare g
                ∗ owns (c : Thread nD τ) arg8 fullShare s1
                ∗ arg9.view.loc (c : Thread nD τ) ↦[arg9.view.set]{fullShare} arg9.view.writes (Elt F) (harg9.unread s2) LS) -∗ K ⟨⟩))
          ⊢ wp frame (wpE (defs₀ (F := F)) Variants.none c none) E (cc0__gcn_kernel i arg1 harg1 arg2 harg2 arg3 harg3 arg4 harg4 arg5 harg5 arg6 harg6 arg7 harg7 arg8 harg8 arg9 harg9) K } := by
  refine ⟨?_, fun E K => ?run⟩
  case run =>
    simp only [cc0__gcn_kernel_eq_skeleton]; unfold cc0__gcn_kernel_skel
    unfold owns
    iintro ⟨⟨%f3, %hf3, H3⟩, ⟨%f4, %hf4, H4⟩, ⟨%f6, %hf6, H6⟩, ⟨%f8, %hf8, H8⟩, ⟨%f9, %hf9, H9⟩, Hk⟩
    obtain rfl := harg3.eq_unread hf3; obtain rfl := harg4.eq_unread hf4; obtain rfl := harg6.eq_unread hf6
    obtain rfl := harg8.eq_unread hf8; obtain rfl := harg9.eq_unread hf9
    sl_exec (disch := first | exact hA | exact hB | exact hC)
    sl_step
    iapply Hk
    isplitl [H3]
    · iexists _; isplitr; · ipureintro; exact harg3.read_unread _
      iexact H3
    isplitl [H4]
    · iexists _; isplitr; · ipureintro; exact harg4.read_unread _
      iexact H4
    isplitl [H6]
    · iexists _; isplitr; · ipureintro; exact harg6.read_unread _
      iexact H6
    isplitl [H8]
    · iexists _; isplitr; · ipureintro; exact harg8.read_unread _
      iexact H8
    iexact H9

/-- The one piece: the slice of 400 rows at the point's offset, holding the second support's rows computed from the
    loaded buffers' contents. -/
theorem runB_pieces (c : Dev nD) (i : grid0.Coords)
    (arg1 : Memref sig .tc .vmem S10000x128 .f32) (harg1 : arg1.IsWhole) (arg2 : Memref sig .tc .vmem S128x128 .f32) (harg2 : arg2.IsWhole)
    (arg3 : Memref sig .tc .vmem S1x128 .f32) (harg3 : arg3.IsWhole) (arg4 : Memref sig .tc .vmem S128x128 .f32) (harg4 : arg4.IsWhole)
    (arg5 : Memref sig .tc .vmem S1x128 .f32) (harg5 : arg5.IsWhole) (arg6 : Memref sig .tc .vmem S400x10000 .f32) (harg6 : arg6.IsWhole)
    (arg7 : Memref sig .tc .vmem S400x128 .f32) (harg7 : arg7.IsWhole) (arg8 : Memref sig .tc .vmem S10000x128 .f32) (harg8 : arg8.IsWhole)
    (arg9 : Memref sig .tc .vmem S10000x128 .f32) (harg9 : arg9.IsWhole)
    (hA : ¬condA i) (hB : condB i) (hC : ¬condC i)
    (b1 : Vec F S1x128 .f32) (w2 : Vec F S128x128 .f32) (g : Vec F S400x10000 .f32) (s1 s2 : Vec F S10000x128 .f32) :
    (runB c i arg1 harg1 arg2 harg2 arg3 harg3 arg4 harg4 arg5 harg5 arg6 harg6 arg7 harg7 arg8 harg8 arg9 harg9 hA hB hC b1 w2 g s1 s2).1
      = [⟨Rect.unit (s := S10000x128) (k0_off1 i) S400x128.size (k0_off1_inb i hB), k0_pay2 g s1 b1 w2⟩] := by
  unfold runB; dsimp only
  simp only [View.readAt_eq_ld, Memref.IsWhole.read_unread, View.ld_unit_zero (S := S400x10000) hz2, View.ld_unit_zero (S := S10000x128) hz2,
    View.ld_unit_zero (S := S1x128) hz2, View.ld_unit_zero (S := S128x128) hz2]

end Cert.Kernel.Body

end
-- ==== Proof.BRunA.lean ====
/-
  The body at the first point of the grid: the first conditional computes `x · W1` and stores it over the whole
  first scratch; the second then reads it back, with the first block of `g`, `b1` and `W2`, and stores
  `relu (g_0 · s1 + b1) · W2` into rows 0 … 399 of the second scratch; the third falls through.
-/
import proofs.«141898_g57621281243476_cont_9to1c4b_629_17_alg».proof.Proof.BRunB

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The pieces the body's two stores leave in the two scratch buffers at the first point, with the proof that the body
    runs to its continuation holding the loaded buffers as they were and each scratch with its pieces written. -/
noncomputable def runA (c : Dev nD) (i : grid0.Coords)
    (arg1 : Memref sig .tc .vmem S10000x128 .f32) (harg1 : arg1.IsWhole) (arg2 : Memref sig .tc .vmem S128x128 .f32) (harg2 : arg2.IsWhole)
    (arg3 : Memref sig .tc .vmem S1x128 .f32) (harg3 : arg3.IsWhole) (arg4 : Memref sig .tc .vmem S128x128 .f32) (harg4 : arg4.IsWhole)
    (arg5 : Memref sig .tc .vmem S1x128 .f32) (harg5 : arg5.IsWhole) (arg6 : Memref sig .tc .vmem S400x10000 .f32) (harg6 : arg6.IsWhole)
    (arg7 : Memref sig .tc .vmem S400x128 .f32) (harg7 : arg7.IsWhole) (arg8 : Memref sig .tc .vmem S10000x128 .f32) (harg8 : arg8.IsWhole)
    (arg9 : Memref sig .tc .vmem S10000x128 .f32) (harg9 : arg9.IsWhole)
    (hA : condA i) (hB : condB i) (hC : ¬condC i)
    (x : Vec F S10000x128 .f32) (w1 : Vec F S128x128 .f32) (b1 : Vec F S1x128 .f32) (w2 : Vec F S128x128 .f32) (g : Vec F S400x10000 .f32) (s2 : Vec F S10000x128 .f32) :
    Σ' (LA : List (View.Piece (Elt F) S10000x128 .f32)), { LB : List (View.Piece (Elt F) S10000x128 .f32) //
      ∀ (E : Set ℕ) (K : PUnit → sProp 𝕄),
        iprop(owns (c : Thread nD τ) arg1 fullShare x ∗ owns (c : Thread nD τ) arg2 fullShare w1 ∗ owns (c : Thread nD τ) arg3 fullShare b1 ∗ owns (c : Thread nD τ) arg4 fullShare w2 ∗ owns (c : Thread nD τ) arg6 fullShare g
            ∗ (∃ d, owns (c : Thread nD τ) arg8 fullShare d) ∗ owns (c : Thread nD τ) arg9 fullShare s2
            ∗ (iprop(owns (c : Thread nD τ) arg1 fullShare x ∗ owns (c : Thread nD τ) arg2 fullShare w1 ∗ owns (c : Thread nD τ) arg3 fullShare b1 ∗ owns (c : Thread nD τ) arg4 fullShare w2 ∗ owns (c : Thread nD τ) arg6 fullShare g
                ∗ (∃ f, arg8.view.loc (c : Thread nD τ) ↦[arg8.view.set]{fullShare} arg8.view.writes (Elt F) f LA)
                ∗ arg9.view.loc (c : Thread nD τ) ↦[arg9.view.set]{fullShare} arg9.view.writes (Elt F) (harg9.unread s2) LB) -∗ K ⟨⟩))
          ⊢ wp frame (wpE (defs₀ (F := F)) Variants.none c none) E (cc0__gcn_kernel i arg1 harg1 arg2 harg2 arg3 harg3 arg4 harg4 arg5 harg5 arg6 harg6 arg7 harg7 arg8 harg8 arg9 harg9) K } := by
  refine ⟨?_, ?_, fun E K => ?run⟩
  case run =>
    simp only [cc0__gcn_kernel_eq_skeleton]; unfold cc0__gcn_kernel_skel
    unfold owns
    iintro ⟨⟨%f1, %hf1, H1⟩, ⟨%f2, %hf2, H2⟩, ⟨%f3, %hf3, H3⟩, ⟨%f4, %hf4, H4⟩, ⟨%f6, %hf6, H6⟩, ⟨%d8, %f8, -, H8⟩, ⟨%f9, %hf9, H9⟩, Hk⟩
    obtain rfl := harg1.eq_unread hf1; obtain rfl := harg2.eq_unread hf2
    obtain rfl := harg3.eq_unread hf3; obtain rfl := harg4.eq_unread hf4; obtain rfl := harg6.eq_unread hf6
    obtain rfl := harg9.eq_unread hf9
    sl_exec (disch := first | exact hA | exact hB | exact hC)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H6]
    · iexists _; isplitr; · ipureintro; exact harg6.read_unread _
      iexact H6
    isplitl [H8]; · iexists _; iexact H8
    iexact H9

/-- The first scratch's one piece: the whole buffer, holding `x · W1`. -/
theorem runA_piecesA (c : Dev nD) (i : grid0.Coords)
    (arg1 : Memref sig .tc .vmem S10000x128 .f32) (harg1 : arg1.IsWhole) (arg2 : Memref sig .tc .vmem S128x128 .f32) (harg2 : arg2.IsWhole)
    (arg3 : Memref sig .tc .vmem S1x128 .f32) (harg3 : arg3.IsWhole) (arg4 : Memref sig .tc .vmem S128x128 .f32) (harg4 : arg4.IsWhole)
    (arg5 : Memref sig .tc .vmem S1x128 .f32) (harg5 : arg5.IsWhole) (arg6 : Memref sig .tc .vmem S400x10000 .f32) (harg6 : arg6.IsWhole)
    (arg7 : Memref sig .tc .vmem S400x128 .f32) (harg7 : arg7.IsWhole) (arg8 : Memref sig .tc .vmem S10000x128 .f32) (harg8 : arg8.IsWhole)
    (arg9 : Memref sig .tc .vmem S10000x128 .f32) (harg9 : arg9.IsWhole)
    (hA : condA i) (hB : condB i) (hC : ¬condC i)
    (x : Vec F S10000x128 .f32) (w1 : Vec F S128x128 .f32) (b1 : Vec F S1x128 .f32) (w2 : Vec F S128x128 .f32) (g : Vec F S400x10000 .f32) (s2 : Vec F S10000x128 .f32) :
    (runA c i arg1 harg1 arg2 harg2 arg3 harg3 arg4 harg4 arg5 harg5 arg6 harg6 arg7 harg7 arg8 harg8 arg9 harg9 hA hB hC x w1 b1 w2 g s2).1
      = [⟨Rect.unit (s := S10000x128) ![0, 0] S10000x128.size inb_S10000x128_S10000x128_0_0, k0_pay1 x w1⟩] := by
  unfold runA; dsimp only
  unfold runA.sl.H8_1
  simp only [View.readAt_eq_ld, Memref.IsWhole.read_unread, View.ld_unit_zero (S := S400x10000) hz2, View.ld_unit_zero (S := S10000x128) hz2,
    View.ld_unit_zero (S := S1x128) hz2, View.ld_unit_zero (S := S128x128) hz2, View.ld_unit_zero (S := S400x128) hz2]

/-- The second scratch's one piece: rows 0 … 399, holding the second support's rows computed from the first block of
    `g`, the first support just stored, `b1` and `W2`. -/
theorem runA_piecesB (c : Dev nD) (i : grid0.Coords)
    (arg1 : Memref sig .tc .vmem S10000x128 .f32) (harg1 : arg1.IsWhole) (arg2 : Memref sig .tc .vmem S128x128 .f32) (harg2 : arg2.IsWhole)
    (arg3 : Memref sig .tc .vmem S1x128 .f32) (harg3 : arg3.IsWhole) (arg4 : Memref sig .tc .vmem S128x128 .f32) (harg4 : arg4.IsWhole)
    (arg5 : Memref sig .tc .vmem S1x128 .f32) (harg5 : arg5.IsWhole) (arg6 : Memref sig .tc .vmem S400x10000 .f32) (harg6 : arg6.IsWhole)
    (arg7 : Memref sig .tc .vmem S400x128 .f32) (harg7 : arg7.IsWhole) (arg8 : Memref sig .tc .vmem S10000x128 .f32) (harg8 : arg8.IsWhole)
    (arg9 : Memref sig .tc .vmem S10000x128 .f32) (harg9 : arg9.IsWhole)
    (hA : condA i) (hB : condB i) (hC : ¬condC i)
    (x : Vec F S10000x128 .f32) (w1 : Vec F S128x128 .f32) (b1 : Vec F S1x128 .f32) (w2 : Vec F S128x128 .f32) (g : Vec F S400x10000 .f32) (s2 : Vec F S10000x128 .f32) :
    (runA c i arg1 harg1 arg2 harg2 arg3 harg3 arg4 harg4 arg5 harg5 arg6 harg6 arg7 harg7 arg8 harg8 arg9 harg9 hA hB hC x w1 b1 w2 g s2).2.1
      = [⟨Rect.unit (s := S10000x128) (k0_off1 i) S400x128.size (k0_off1_inb i hB), k0_pay2 g (k0_pay1 x w1) b1 w2⟩] := by
  unfold runA; dsimp only
  unfold runA.sl.v10 runA.sl.H8_1
  simp only [View.readAt_eq_ld, Memref.IsWhole.read_unread, View.ld_unit_zero (S := S400x10000) hz2, View.ld_unit_zero (S := S10000x128) hz2,
    View.ld_unit_zero (S := S1x128) hz2, View.ld_unit_zero (S := S128x128) hz2, View.ld_unit_zero (S := S400x128) hz2]
  have e := View.readCov_unit_zero (Val := Elt F) (S := S10000x128) (e := .f32) arg8.view hz2 inb_S10000x128_S10000x128_0_0 (k0_pay1 x w1)
  first
    | rw [e]
    | exact congrArg (fun z => [(⟨Rect.unit (s := S10000x128) (k0_off1 i) S400x128.size (k0_off1_inb i hB), k0_pay2 g z b1 w2⟩ : View.Piece (Elt F) S10000x128 .f32)]) e

end Cert.Kernel.Body

end
-- ==== Proof.BRunC.lean ====
/-
  The body at a point of the second phase (t ≥ 25): the first two conditionals fall through; the third loads the
  point's block of `g`, the whole second scratch and `b2`, and stores `g_u · s2 + b2` over the whole output
  block.
-/
import proofs.«141898_g57621281243476_cont_9to1c4b_629_17_alg».proof.Proof.BRunA

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The pieces the body's one store leaves in the output block in the second phase, with the proof that the body runs
    to its continuation holding the loaded buffers as they were and the output block with those pieces written. -/
noncomputable def runC (c : Dev nD) (i : grid0.Coords)
    (arg1 : Memref sig .tc .vmem S10000x128 .f32) (harg1 : arg1.IsWhole) (arg2 : Memref sig .tc .vmem S128x128 .f32) (harg2 : arg2.IsWhole)
    (arg3 : Memref sig .tc .vmem S1x128 .f32) (harg3 : arg3.IsWhole) (arg4 : Memref sig .tc .vmem S128x128 .f32) (harg4 : arg4.IsWhole)
    (arg5 : Memref sig .tc .vmem S1x128 .f32) (harg5 : arg5.IsWhole) (arg6 : Memref sig .tc .vmem S400x10000 .f32) (harg6 : arg6.IsWhole)
    (arg7 : Memref sig .tc .vmem S400x128 .f32) (harg7 : arg7.IsWhole) (arg8 : Memref sig .tc .vmem S10000x128 .f32) (harg8 : arg8.IsWhole)
    (arg9 : Memref sig .tc .vmem S10000x128 .f32) (harg9 : arg9.IsWhole)
    (hA : ¬condA i) (hB : ¬condB i) (hC : condC i)
    (b2 : Vec F S1x128 .f32) (g : Vec F S400x10000 .f32) (s2 : Vec F S10000x128 .f32) :
    { LO : List (View.Piece (Elt F) S400x128 .f32) //
      ∀ (E : Set ℕ) (K : PUnit → sProp 𝕄),
        iprop(owns (c : Thread nD τ) arg5 fullShare b2 ∗ owns (c : Thread nD τ) arg6 fullShare g ∗ (∃ d, owns (c : Thread nD τ) arg7 fullShare d) ∗ owns (c : Thread nD τ) arg9 fullShare s2
            ∗ (iprop(owns (c : Thread nD τ) arg5 fullShare b2 ∗ owns (c : Thread nD τ) arg6 fullShare g
                ∗ (∃ f, arg7.view.loc (c : Thread nD τ) ↦[arg7.view.set]{fullShare} arg7.view.writes (Elt F) f LO)
                ∗ owns (c : Thread nD τ) arg9 fullShare s2) -∗ K ⟨⟩))
          ⊢ wp frame (wpE (defs₀ (F := F)) Variants.none c none) E (cc0__gcn_kernel i arg1 harg1 arg2 harg2 arg3 harg3 arg4 harg4 arg5 harg5 arg6 harg6 arg7 harg7 arg8 harg8 arg9 harg9) K } := by
  refine ⟨?_, fun E K => ?run⟩
  case run =>
    simp only [cc0__gcn_kernel_eq_skeleton]; unfold cc0__gcn_kernel_skel
    unfold owns
    iintro ⟨⟨%f5, %hf5, H5⟩, ⟨%f6, %hf6, H6⟩, ⟨%d7, %f7, -, H7⟩, ⟨%f9, %hf9, H9⟩, Hk⟩
    obtain rfl := harg5.eq_unread hf5; obtain rfl := harg6.eq_unread hf6; obtain rfl := harg9.eq_unread hf9
    sl_exec (disch := first | exact hA | exact hB | exact hC)
    sl_step
    iapply Hk
    isplitl [H5]
    · iexists _; isplitr; · ipureintro; exact harg5.read_unread _
      iexact H5
    isplitl [H6]
    · iexists _; isplitr; · ipureintro; exact harg6.read_unread _
      iexact H6
    isplitl [H7]; · iexists _; iexact H7
    iexists _; isplitr; · ipureintro; exact harg9.read_unread _
    iexact H9

/-- The output block's one piece: the whole block, holding `g_u · s2 + b2`. -/
theorem runC_pieces (c : Dev nD) (i : grid0.Coords)
    (arg1 : Memref sig .tc .vmem S10000x128 .f32) (harg1 : arg1.IsWhole) (arg2 : Memref sig .tc .vmem S128x128 .f32) (harg2 : arg2.IsWhole)
    (arg3 : Memref sig .tc .vmem S1x128 .f32) (harg3 : arg3.IsWhole) (arg4 : Memref sig .tc .vmem S128x128 .f32) (harg4 : arg4.IsWhole)
    (arg5 : Memref sig .tc .vmem S1x128 .f32) (harg5 : arg5.IsWhole) (arg6 : Memref sig .tc .vmem S400x10000 .f32) (harg6 : arg6.IsWhole)
    (arg7 : Memref sig .tc .vmem S400x128 .f32) (harg7 : arg7.IsWhole) (arg8 : Memref sig .tc .vmem S10000x128 .f32) (harg8 : arg8.IsWhole)
    (arg9 : Memref sig .tc .vmem S10000x128 .f32) (harg9 : arg9.IsWhole)
    (hA : ¬condA i) (hB : ¬condB i) (hC : condC i)
    (b2 : Vec F S1x128 .f32) (g : Vec F S400x10000 .f32) (s2 : Vec F S10000x128 .f32) :
    (runC c i arg1 harg1 arg2 harg2 arg3 harg3 arg4 harg4 arg5 harg5 arg6 harg6 arg7 harg7 arg8 harg8 arg9 harg9 hA hB hC b2 g s2).1
      = [⟨Rect.unit (s := S400x128) ![0, 0] S400x128.size inb_S400x128_S400x128_0_0, k0_pay3 g s2 b2⟩] := by
  unfold runC; dsimp only
  simp only [View.readAt_eq_ld, Memref.IsWhole.read_unread, View.ld_unit_zero (S := S400x10000) hz2, View.ld_unit_zero (S := S10000x128) hz2,
    View.ld_unit_zero (S := S1x128) hz2, View.ld_unit_zero (S := S128x128) hz2, View.ld_unit_zero (S := S400x128) hz2]

end Cert.Kernel.Body

end
-- ==== Proof.BBody.lean ====
/-
  The body obligation of the graph-convolution kernel, at every float instance.

  What the two scratch buffers hold between points is stated by a tracking invariant: after the first point the
  first scratch holds `s1 = x · W1`; after point `n` the rows `0 … 400 (n + 1) - 1` of the second scratch hold
  the rows of `s2 = relu (g · s1 + b1) · W2` (row block `k` computed from the `k`-th block of `g`), whatever the
  later rows hold. From point 25 on all 10000 rows are there, so a point `t ≥ 25` leaves
  `g_u · s2 + b2` (its own block of `g`) in the output block, a function of the arguments alone.
-/
import proofs.«141898_g57621281243476_cont_9to1c4b_629_17_alg».proof.Proof.BRunC

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem cfgN : cfg0.N = 50 := N_0

/-- The first point of the grid. -/
def t0 : Fin cfg0.N := ⟨0, by rw [cfgN]; omega⟩

/-! ## The values the kernel computes, as functions of the argument arrays -/

/-- The first support matrix `x · W1`: what point 0 stores over the first scratch. -/
def S1 (c : Dev nD) : Vec F S10000x128 .f32 := k0_pay1 (iblk m c 0 t0) (iblk m c 1 t0)

/-- Rows `400 k … 400 k + 399` of the second support matrix: `relu (g_k · s1 + b1) · W2`. -/
def P2 (c : Dev nD) (k : Fin cfg0.N) : Vec F S400x128 .f32 := k0_pay2 (iblk m c 5 k) (S1 m c) (iblk m c 2 k) (iblk m c 3 k)

/-- The block of 400 rows a row of the second support matrix lies in, as a point of the grid's first phase, -/
def rowBlk (j : S10000x128.Idx) : Fin cfg0.N := ⟨(j 0).val / 400, by have := ValueIdx.idx2_lt0 j; rw [cfgN]; omega⟩
/-- and its position within that block. -/
def rowIn (j : S10000x128.Idx) : S400x128.Idx :=
  ValueIdx.ix2 (⟨(j 0).val % 400, Nat.mod_lt _ (by norm_num)⟩ : Fin 400) (⟨(j 1).val, ValueIdx.idx2_lt1 j⟩ : Fin 128)

/-- The second support matrix, whole. -/
def S2 (c : Dev nD) : Vec F S10000x128 .f32 := fun j => P2 m c (rowBlk j) (rowIn j)

/-- The output block a point of the second phase stores: `g_u · s2 + b2` with the point's block of `g`. -/
def P3 (c : Dev nD) (t : Fin cfg0.N) : Vec F S400x128 .f32 := k0_pay3 (iblk m c 5 t) (S2 m c) (iblk m c 4 t)

/-- Contents of the second scratch whose first `400 n` rows are the second support matrix's. -/
def Good (c : Dev nD) (n : ℕ) (X : Vec F S10000x128 .f32) : Prop :=
  ∀ j : S10000x128.Idx, (j 0).val < 400 * n → X j = S2 m c j

/-- Storing block `t`'s rows at row offset `400 t` extends the good rows by 400. -/
theorem good_step (c : Dev nD) (t : Fin cfg0.N) (hlt : t.val < 25) (v : View sig .tc .vmem S10000x128 .f32) (f : v.ty.Contents (Elt F))
    (X : Vec F S10000x128 .f32) (hf : v.read (Elt F) f = X) (hX : Good m c t.val X)
    (inb : ∀ a : Fin 2, k0_off1 (grid0.coords t) a + S400x128.size a ≤ S10000x128.size a)
    (w : (Rect.unit (s := S10000x128) (k0_off1 (grid0.coords t)) S400x128.size inb).shape.Idx → Elt F .f32) (hw : w = P2 m c t) :
    Good m c (t.val + 1) (v.read (Elt F) (v.writes (Elt F) f [(⟨Rect.unit (s := S10000x128) (k0_off1 (grid0.coords t)) S400x128.size inb, w⟩ : View.Piece (Elt F) S10000x128 .f32)])) := by
  intro j hj
  by_cases h : 400 * t.val ≤ (j 0).val
  · rw [View.read_writes_cons_rows_of_mem v f inb w [] j (rowIn j) (off_eq t)
      (by show (j 0).val = 400 * t.val + (j 0).val % 400; omega) rfl]
    subst hw
    have hb : rowBlk j = t := Fin.ext (by show (j 0).val / 400 = t.val; omega)
    unfold S2; rw [hb]
  · rw [View.read_writes_cons_rows_of_not_mem v f inb w [] j (off_eq t) (rfl : S400x128.size (0 : Fin 2) = 400) (Or.inl (by omega)),
      View.writes_nil, hf]
    exact hX j (by omega)

/-- One whole-buffer store leaves its payload, whatever the buffer held. -/
theorem read_whole_store {S : Shape} (v : View sig .tc .vmem S .f32) (f : v.ty.Contents (Elt F)) {off : Fin S.rank → Nat} (h : off = fun _ => 0)
    (inb : ∀ a, off a + S.size a ≤ S.size a) (w : S.Idx → Elt F .f32) :
    v.read (Elt F) (v.writes (Elt F) f [(⟨Rect.unit off S.size inb, w⟩ : View.Piece (Elt F) S .f32)]) = w := by
  rw [View.read_writes_eq_canon v f _ (fun y => ⟨_, List.mem_singleton_self _, View.mem_set_unit_zero h inb y⟩), View.canon_unit_zero h]

/-! ## The tracking invariant -/

/-- Before point `n`: at the start the class's invariant (both scratch buffers at anything); afterwards the first
    scratch at `s1`, the second at contents whose first `400 n` rows are `s2`'s, and the generator register. -/
def Phi (c : Dev nD) : ℕ → sProp 𝕄
  | 0 => Pipeline.ΦA spec0 c
  | n + 1 => iprop(iprop(owns (c : Thread nD τ) scA fullShare (S1 m c) ∗ (∃ X, ⌜Good m c (n + 1) X⌝ ∗ owns (c : Thread nD τ) scB fullShare X)) ∗ (∃ r, prngReg c r))

theorem Phi_succ (c : Dev nD) (n : ℕ) :
    Phi m c (n + 1) = iprop(iprop(owns (c : Thread nD τ) scA fullShare (S1 m c) ∗ (∃ X, ⌜Good m c (n + 1) X⌝ ∗ owns (c : Thread nD τ) scB fullShare X)) ∗ (∃ r, prngReg c r)) := rfl

theorem Phi_pos (c : Dev nD) (n : ℕ) (hn : n ≠ 0) :
    Phi m c n = iprop(iprop(owns (c : Thread nD τ) scA fullShare (S1 m c) ∗ (∃ X, ⌜Good m c n X⌝ ∗ owns (c : Thread nD τ) scB fullShare X)) ∗ (∃ r, prngReg c r)) := by
  cases n with
  | zero => exact absurd rfl hn
  | succ n => rfl

/-! ## The proof data -/

/-- The arrays as the region finds them; after the body each input's buffer at its block and the output's at the
    second phase's block (consulted only where the window is live); the tracking invariant; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => P3 m c t
  Φ t := Phi m c t.val
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = P3 m c t := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d

theorem leaves0 (c : Dev nD) (t : Fin cfg0.N) : (dats m 0 c).leavesExact 0 t = owns (c : Thread nD τ) (ms0 t) fullShare (iblk m c 0 t) := by
  unfold Dat.leavesExact; rw [live0 t, after0]
theorem leaves1 (c : Dev nD) (t : Fin cfg0.N) : (dats m 0 c).leavesExact 1 t = owns (c : Thread nD τ) (ms1 t) fullShare (iblk m c 1 t) := by
  unfold Dat.leavesExact; rw [live1 t, after1]
theorem leaves2 (c : Dev nD) (t : Fin cfg0.N) : (dats m 0 c).leavesExact 2 t = owns (c : Thread nD τ) (ms2 t) fullShare (iblk m c 2 t) := by
  unfold Dat.leavesExact; rw [live2 t, after2]
theorem leaves3 (c : Dev nD) (t : Fin cfg0.N) : (dats m 0 c).leavesExact 3 t = owns (c : Thread nD τ) (ms3 t) fullShare (iblk m c 3 t) := by
  unfold Dat.leavesExact; rw [live3 t, after3]
theorem leaves4 (c : Dev nD) (t : Fin cfg0.N) : (dats m 0 c).leavesExact 4 t = owns (c : Thread nD τ) (ms4 t) fullShare (iblk m c 4 t) := by
  unfold Dat.leavesExact; rw [live4 t, after4]
theorem leaves5 (c : Dev nD) (t : Fin cfg0.N) : (dats m 0 c).leavesExact 5 t = owns (c : Thread nD τ) (ms5 t) fullShare (iblk m c 5 t) := by
  unfold Dat.leavesExact; rw [live5 t, after5]
theorem leaves6 (c : Dev nD) (t : Fin cfg0.N) (h : 25 ≤ t.val) : (dats m 0 c).leavesExact 6 t = owns (c : Thread nD τ) (ms6 t) fullShare (P3 m c t) := by
  unfold Dat.leavesExact; rw [live6 t h, after6]

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 4000000 in
/-- The body at any point, by the phase the point is in. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).owesAt () t.succ = (dats m 0 c).owesAt () t.castSucc from rfl]
  rw [show (dats m 0 c).Φ t.succ = Phi m c (t.val + 1) from rfl, show (dats m 0 c).Φ t.castSucc = Phi m c t.val from rfl, Phi_succ]
  rw [leaves0, leaves1, leaves2, leaves3, leaves4, leaves5]
  have hN : t.val < 50 := lt_of_lt_of_eq t.isLt cfgN
  by_cases hz : t.val = 0
  · -- the first point
    have ht : t = t0 := Fin.ext hz
    subst ht
    have hlt : t0.val < 25 := by omega
    have hA : condA (grid0.coords t0) := (hcondA t0).mpr hz
    have hB : condB (grid0.coords t0) := (hcondB t0).mpr hlt
    have hC : ¬condC (grid0.coords t0) := fun h => by have := (hcondC t0).mp h; omega
    rw [Dat.leavesExact_idle (dats m 0 c) 6 t0 (idle6 t0 hlt) (noFlush6 t0 hlt)]
    rw [show Phi m c t0.val = Pipeline.ΦA spec0 c from by rw [hz]; rfl, PhiA_eq]
    iintro ⟨⟨⟨⟨%dA, HA⟩, ⟨%dB, HB⟩⟩, Hg⟩, Ho, ⟨%d0, H0⟩, ⟨%d1, H1⟩, ⟨%d2, H2⟩, ⟨%d3, H3⟩, ⟨%d4, H4⟩, ⟨%d5, H5⟩, H6⟩
    iapply ((runA c (grid0.coords t0) (ms0 t0) (hs0 t0) (ms1 t0) (hs1 t0) (ms2 t0) (hs2 t0) (ms3 t0) (hs3 t0) (ms4 t0) (hs4 t0) (ms5 t0) (hs5 t0) (ms6 t0) (hs6 t0) scA (Memref.isWhole_whole _) scB (Memref.isWhole_whole _) hA hB hC (iblk m c 0 t0) (iblk m c 1 t0) (iblk m c 2 t0) (iblk m c 3 t0) (iblk m c 5 t0) dB).2.2 Set.univ _)
    isplitl [H0]; · iexact H0
    isplitl [H1]; · iexact H1
    isplitl [H2]; · iexact H2
    isplitl [H3]; · iexact H3
    isplitl [H5]; · iexact H5
    isplitl [HA]; · iexists _; iexact HA
    isplitl [HB]; · iexact HB
    iintro ⟨H0, H1, H2, H3, H5, ⟨%fA, HA⟩, HB⟩
    isplitl [HA HB Hg]
    · isplitl [HA HB]
      · isplitl [HA]
        · unfold owns; iexists _; isplitr
          swap; · iexact HA
          ipureintro
          rw [runA_piecesA, read_whole_store _ _ hz2]; rfl
        iexists _; isplitr
        swap
        · unfold owns; iexists _; isplitr
          swap; · iexact HB
          ipureintro; rfl
        ipureintro
        rw [runA_piecesB]
        exact good_step m c t0 hlt _ _ dB (Memref.IsWhole.read_unread _ _) (fun j hj => absurd hj (by rw [hz]; omega)) _ _ rfl
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · by_cases hlt : t.val < 25
    · -- a later point of the first phase
      have hA : ¬condA (grid0.coords t) := fun h => hz ((hcondA t).mp h)
      have hB : condB (grid0.coords t) := (hcondB t).mpr hlt
      have hC : ¬condC (grid0.coords t) := fun h => by have := (hcondC t).mp h; omega
      rw [Dat.leavesExact_idle (dats m 0 c) 6 t (idle6 t hlt) (noFlush6 t hlt)]
      rw [Phi_pos m c _ hz]
      iintro ⟨⟨⟨HA, ⟨%X, %hX, HB⟩⟩, Hg⟩, Ho, ⟨%d0, H0⟩, ⟨%d1, H1⟩, ⟨%d2, H2⟩, ⟨%d3, H3⟩, ⟨%d4, H4⟩, ⟨%d5, H5⟩, H6⟩
      iapply ((runB c (grid0.coords t) (ms0 t) (hs0 t) (ms1 t) (hs1 t) (ms2 t) (hs2 t) (ms3 t) (hs3 t) (ms4 t) (hs4 t) (ms5 t) (hs5 t) (ms6 t) (hs6 t) scA (Memref.isWhole_whole _) scB (Memref.isWhole_whole _) hA hB hC (iblk m c 2 t) (iblk m c 3 t) (iblk m c 5 t) (S1 m c) X).2 Set.univ _)
      isplitl [H2]; · iexact H2
      isplitl [H3]; · iexact H3
      isplitl [H5]; · iexact H5
      isplitl [HA]; · iexact HA
      isplitl [HB]; · iexact HB
      iintro ⟨H2, H3, H5, HA, HB⟩
      isplitl [HA HB Hg]
      · isplitl [HA HB]
        · isplitl [HA]; · iexact HA
          iexists _; isplitr
          swap
          · unfold owns; iexists _; isplitr
            swap; · iexact HB
            ipureintro; rfl
          ipureintro
          rw [runB_pieces]
          exact good_step m c t hlt _ _ X (Memref.IsWhole.read_unread _ _) hX _ _ rfl
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · -- a point of the second phase
      have hge : 25 ≤ t.val := by omega
      have hA : ¬condA (grid0.coords t) := fun h => hz ((hcondA t).mp h)
      have hB : ¬condB (grid0.coords t) := fun h => hlt ((hcondB t).mp h)
      have hC : condC (grid0.coords t) := (hcondC t).mpr hge
      rw [leaves6 m c t hge]
      rw [Phi_pos m c _ hz]
      iintro ⟨⟨⟨HA, ⟨%X, %hX, HB⟩⟩, Hg⟩, Ho, ⟨%d0, H0⟩, ⟨%d1, H1⟩, ⟨%d2, H2⟩, ⟨%d3, H3⟩, ⟨%d4, H4⟩, ⟨%d5, H5⟩, ⟨%d6, H6⟩⟩
      have hXS : X = S2 m c := funext fun j => hX j (by have := ValueIdx.idx2_lt0 j; omega)
      iapply ((runC c (grid0.coords t) (ms0 t) (hs0 t) (ms1 t) (hs1 t) (ms2 t) (hs2 t) (ms3 t) (hs3 t) (ms4 t) (hs4 t) (ms5 t) (hs5 t) (ms6 t) (hs6 t) scA (Memref.isWhole_whole _) scB (Memref.isWhole_whole _) hA hB hC (iblk m c 4 t) (iblk m c 5 t) X).2 Set.univ _)
      isplitl [H4]; · iexact H4
      isplitl [H5]; · iexact H5
      isplitl [H6]; · iexists _; iexact H6
      isplitl [HB]; · iexact HB
      iintro ⟨H4, H5, ⟨%f6, H6⟩, HB⟩
      isplitl [HA HB Hg]
      · isplitl [HA HB]
        · isplitl [HA]; · iexact HA
          iexists X; isplitr
          swap; · iexact HB
          ipureintro
          exact fun j _ => hX j (by have := ValueIdx.idx2_lt0 j; omega)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro
      rw [runC_pieces, read_whole_store _ _ hz2, hXS]; rfl

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = Pipeline.ΦA spec0 c from rfl]
  try exact Idealize.SL.BI.Entails.refl _

/-- After the last point the invariant gives the class's back: what the scratch buffers hold is forgotten. -/
theorem hout (c : Dev nD) : (dats m 0 c).Φ (Fin.last cfg0.N) ⊢ Pipeline.ΦA spec0 c := by
  rw [show (dats m 0 c).Φ (Fin.last cfg0.N) = Phi m c (Fin.last cfg0.N).val from rfl,
    Phi_pos m c _ (by rw [Fin.val_last, cfgN]; omega), PhiA_eq]
  iintro ⟨⟨HA, ⟨%X, -, HB⟩⟩, Hg⟩
  isplitl [HA HB]
  · isplitl [HA]
    · iexists _; iexact HA
    iexists _; iexact HB
  iexact Hg

/-! ## The run -/

set_option backward.isDefEq.respectTransparency.types false in
/-- Every weakly fair execution of @main terminates, every array of the pipeline at what the library computes from the
    proof data and every other unscoped buffer as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m)
    (hmain := hmain m Variants.none) (hA := A_eq m) (hin := hin m) (hout := hout m)

/-- The frame: the argument arrays end as they were. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

end Cert.Kernel.Body

end
-- ==== Proof.KCases.lean ====
/-
  The three phases of the two-layer graph convolution's grid, and what the body is handed at a point.

  The grid has 50 points. Point 0 computes the first support matrix `x · W1` into the first scratch; every
  point `t < 25` then fills rows `400 t … 400 t + 399` of the second scratch with
  `relu (g_t · s1 + b1) · W2` (`g_t` the `t`-th block of 400 rows of `g`); every point `t ≥ 25` writes
  the output block `g_u · s2 + b2`, `u = 49 - t`. The three conditionals of the body are decided here in closed
  form over the grid, together with where the output window is idle and where it is written back.
-/
import proofs.«141898_g57621281243476_cont_9to1c4b_629_17_alg».proof.Proof.Gen.KernelIdeal.Frame
import proofs.«141898_g57621281243476_cont_9to1c4b_629_17_alg».proof.Proof.Gen.KernelIdeal.Skeleton
import Idealize.ShloMosaic.Lib.Pipeline.Value
import Idealize.ShloMosaic.Lib.WritesUnit
import Idealize.ShloMosaic.Lib.ValueIdx

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The body's three conditions, decided over the grid -/

/-- The first conditional's condition: the grid coordinate is zero. -/
abbrev condA (i : grid0.Coords) : Prop :=
  (Scalar.cmpi .ne (Scalar.extui (Scalar.cmpi .eq (BitVec.ofNat 32 (i 0).val) 0#32)) 0#32) = 1#1
/-- The second conditional's condition: the grid coordinate is below 25. -/
abbrev condB (i : grid0.Coords) : Prop := k0_cond2 i = 1#1
/-- The third conditional's condition: the grid coordinate is at least 25. -/
abbrev condC (i : grid0.Coords) : Prop := k0_cond3 i = 1#1

theorem hcondA : ∀ t : Fin cfg0.N, condA (grid0.coords t) ↔ t.val = 0 :=
  (by decide +kernel : ∀ t : Fin grid0.N, condA (grid0.coords t) ↔ t.val = 0)
theorem hcondB : ∀ t : Fin cfg0.N, condB (grid0.coords t) ↔ t.val < 25 :=
  (by decide +kernel : ∀ t : Fin grid0.N, condB (grid0.coords t) ↔ t.val < 25)
theorem hcondC : ∀ t : Fin cfg0.N, condC (grid0.coords t) ↔ 25 ≤ t.val :=
  (by decide +kernel : ∀ t : Fin grid0.N, condC (grid0.coords t) ↔ 25 ≤ t.val)

/-- The row offset of the slice of the second scratch a point of the first phase fills: 400 times the point. -/
theorem off_eq : ∀ t : Fin cfg0.N, k0_off1 (grid0.coords t) = ![400 * t.val, 0] :=
  (by decide +kernel : ∀ t : Fin grid0.N, k0_off1 (grid0.coords t) = ![400 * t.val, 0])

/-! ## Where the windows are idle and where the output is written back -/

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
theorem live4 : ∀ t : Fin cfg0.N, cfg0.idle 4 (grid0.coords t) = false := by decide +kernel
theorem live5 : ∀ t : Fin cfg0.N, cfg0.idle 5 (grid0.coords t) = false := by decide +kernel
/-- In the first phase the output window is idle, -/
theorem idle6 : ∀ t : Fin cfg0.N, t.val < 25 → cfg0.idle 6 (grid0.coords t) = true := by decide +kernel
/-- and not written back; -/
theorem noFlush6 : ∀ t : Fin cfg0.N, t.val < 25 → (cfg0.win 6).flush t = false := by decide +kernel
/-- in the second phase it is live, -/
theorem live6 : ∀ t : Fin cfg0.N, 25 ≤ t.val → cfg0.idle 6 (grid0.coords t) = false := by decide +kernel
/-- and written back at every point. -/
theorem flush6 : ∀ t : Fin cfg0.N, 25 ≤ t.val → (cfg0.win 6).flush t = true := by decide +kernel

theorem hz2 : (![0, 0] : Fin 2 → Nat) = fun _ => 0 := funext fun a => by fin_cases a <;> rfl

/-! ## The memrefs the body is called with -/

abbrev ms0 (t : Fin cfg0.N) : Memref sig .tc .vmem S10000x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S128x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x128 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S128x128 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x128 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S400x10000 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S400x128 .f32 := win0_6.stage (cfg0.slots t 6)
abbrev hs6 (t : Fin cfg0.N) : (ms6 t).IsWhole := hstage0_6 ((cfg0.slots t 6).cast nbuf0_6)
/-- The two scratch operands: the first support matrix, and the second, filled 400 rows per point. -/
abbrev scA : Memref sig .tc .vmem S10000x128 .f32 := Memref.whole cc0_scratch0
abbrev scB : Memref sig .tc .vmem S10000x128 .f32 := Memref.whole cc0_scratch1

/-- The region invariant of the class with the two scratch operands as owned memrefs. -/
theorem PhiA_eq (c : Dev nD) :
    (Pipeline.ΦA spec0 c : sProp 𝕄)
      = iprop(iprop((∃ d, owns (c : Thread nD τ) scA fullShare d) ∗ (∃ d, owns (c : Thread nD τ) scB fullShare d)) ∗ (∃ r, prngReg c r)) := by
  unfold Pipeline.ΦA; rw [scopedRest0_eq]; simp only [scA, scB, owns_whole]; try rfl

end Cert.KernelIdeal.Body

end
-- ==== Proof.KRunB.lean ====
/-
  The body at a point of the first phase after the first (0 < t < 25): the first and third conditionals fall
  through; the second loads the point's block of `g`, the first scratch, `b1` and `W2`, and stores
  `relu (g_t · s1 + b1) · W2` into its slice of the second scratch.
-/
import proofs.«141898_g57621281243476_cont_9to1c4b_629_17_alg».proof.Proof.KCases

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The pieces the body's one store leaves in the second scratch in this phase, with the proof that the body runs
    to its continuation holding the loaded buffers as they were and the second scratch with those pieces written. -/
noncomputable def runB (c : Dev nD) (i : grid0.Coords)
    (arg1 : Memref sig .tc .vmem S10000x128 .f32) (harg1 : arg1.IsWhole) (arg2 : Memref sig .tc .vmem S128x128 .f32) (harg2 : arg2.IsWhole)
    (arg3 : Memref sig .tc .vmem S1x128 .f32) (harg3 : arg3.IsWhole) (arg4 : Memref sig .tc .vmem S128x128 .f32) (harg4 : arg4.IsWhole)
    (arg5 : Memref sig .tc .vmem S1x128 .f32) (harg5 : arg5.IsWhole) (arg6 : Memref sig .tc .vmem S400x10000 .f32) (harg6 : arg6.IsWhole)
    (arg7 : Memref sig .tc .vmem S400x128 .f32) (harg7 : arg7.IsWhole) (arg8 : Memref sig .tc .vmem S10000x128 .f32) (harg8 : arg8.IsWhole)
    (arg9 : Memref sig .tc .vmem S10000x128 .f32) (harg9 : arg9.IsWhole)
    (hA : ¬condA i) (hB : condB i) (hC : ¬condC i)
    (b1 : Vec F S1x128 .f32) (w2 : Vec F S128x128 .f32) (g : Vec F S400x10000 .f32) (s1 s2 : Vec F S10000x128 .f32) :
    { LS : List (View.Piece (Elt F) S10000x128 .f32) //
      ∀ (E : Set ℕ) (K : PUnit → sProp 𝕄),
        iprop(owns (c : Thread nD τ) arg3 fullShare b1 ∗ owns (c : Thread nD τ) arg4 fullShare w2 ∗ owns (c : Thread nD τ) arg6 fullShare g
            ∗ owns (c : Thread nD τ) arg8 fullShare s1 ∗ owns (c : Thread nD τ) arg9 fullShare s2
            ∗ (iprop(owns (c : Thread nD τ) arg3 fullShare b1 ∗ owns (c : Thread nD τ) arg4 fullShare w2 ∗ owns (c : Thread nD τ) arg6 fullShare g
                ∗ owns (c : Thread nD τ) arg8 fullShare s1
                ∗ arg9.view.loc (c : Thread nD τ) ↦[arg9.view.set]{fullShare} arg9.view.writes (Elt F) (harg9.unread s2) LS) -∗ K ⟨⟩))
          ⊢ wp frame (wpE (defs₀ (F := F)) Variants.none c none) E (cc0__gcn_kernel i arg1 harg1 arg2 harg2 arg3 harg3 arg4 harg4 arg5 harg5 arg6 harg6 arg7 harg7 arg8 harg8 arg9 harg9) K } := by
  refine ⟨?_, fun E K => ?run⟩
  case run =>
    simp only [cc0__gcn_kernel_eq_skeleton]; unfold cc0__gcn_kernel_skel
    unfold owns
    iintro ⟨⟨%f3, %hf3, H3⟩, ⟨%f4, %hf4, H4⟩, ⟨%f6, %hf6, H6⟩, ⟨%f8, %hf8, H8⟩, ⟨%f9, %hf9, H9⟩, Hk⟩
    obtain rfl := harg3.eq_unread hf3; obtain rfl := harg4.eq_unread hf4; obtain rfl := harg6.eq_unread hf6
    obtain rfl := harg8.eq_unread hf8; obtain rfl := harg9.eq_unread hf9
    sl_exec (disch := first | exact hA | exact hB | exact hC)
    sl_step
    iapply Hk
    isplitl [H3]
    · iexists _; isplitr; · ipureintro; exact harg3.read_unread _
      iexact H3
    isplitl [H4]
    · iexists _; isplitr; · ipureintro; exact harg4.read_unread _
      iexact H4
    isplitl [H6]
    · iexists _; isplitr; · ipureintro; exact harg6.read_unread _
      iexact H6
    isplitl [H8]
    · iexists _; isplitr; · ipureintro; exact harg8.read_unread _
      iexact H8
    iexact H9

/-- The one piece: the slice of 400 rows at the point's offset, holding the second support's rows computed from the
    loaded buffers' contents. -/
theorem runB_pieces (c : Dev nD) (i : grid0.Coords)
    (arg1 : Memref sig .tc .vmem S10000x128 .f32) (harg1 : arg1.IsWhole) (arg2 : Memref sig .tc .vmem S128x128 .f32) (harg2 : arg2.IsWhole)
    (arg3 : Memref sig .tc .vmem S1x128 .f32) (harg3 : arg3.IsWhole) (arg4 : Memref sig .tc .vmem S128x128 .f32) (harg4 : arg4.IsWhole)
    (arg5 : Memref sig .tc .vmem S1x128 .f32) (harg5 : arg5.IsWhole) (arg6 : Memref sig .tc .vmem S400x10000 .f32) (harg6 : arg6.IsWhole)
    (arg7 : Memref sig .tc .vmem S400x128 .f32) (harg7 : arg7.IsWhole) (arg8 : Memref sig .tc .vmem S10000x128 .f32) (harg8 : arg8.IsWhole)
    (arg9 : Memref sig .tc .vmem S10000x128 .f32) (harg9 : arg9.IsWhole)
    (hA : ¬condA i) (hB : condB i) (hC : ¬condC i)
    (b1 : Vec F S1x128 .f32) (w2 : Vec F S128x128 .f32) (g : Vec F S400x10000 .f32) (s1 s2 : Vec F S10000x128 .f32) :
    (runB c i arg1 harg1 arg2 harg2 arg3 harg3 arg4 harg4 arg5 harg5 arg6 harg6 arg7 harg7 arg8 harg8 arg9 harg9 hA hB hC b1 w2 g s1 s2).1
      = [⟨Rect.unit (s := S10000x128) (k0_off1 i) S400x128.size (k0_off1_inb i hB), k0_pay2 g s1 b1 w2⟩] := by
  unfold runB; dsimp only
  simp only [View.readAt_eq_ld, Memref.IsWhole.read_unread, View.ld_unit_zero (S := S400x10000) hz2, View.ld_unit_zero (S := S10000x128) hz2,
    View.ld_unit_zero (S := S1x128) hz2, View.ld_unit_zero (S := S128x128) hz2]

end Cert.KernelIdeal.Body

end
-- ==== Proof.KRunA.lean ====
/-
  The body at the first point of the grid: the first conditional computes `x · W1` and stores it over the whole
  first scratch; the second then reads it back, with the first block of `g`, `b1` and `W2`, and stores
  `relu (g_0 · s1 + b1) · W2` into rows 0 … 399 of the second scratch; the third falls through.
-/
import proofs.«141898_g57621281243476_cont_9to1c4b_629_17_alg».proof.Proof.KRunB

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The pieces the body's two stores leave in the two scratch buffers at the first point, with the proof that the body
    runs to its continuation holding the loaded buffers as they were and each scratch with its pieces written. -/
noncomputable def runA (c : Dev nD) (i : grid0.Coords)
    (arg1 : Memref sig .tc .vmem S10000x128 .f32) (harg1 : arg1.IsWhole) (arg2 : Memref sig .tc .vmem S128x128 .f32) (harg2 : arg2.IsWhole)
    (arg3 : Memref sig .tc .vmem S1x128 .f32) (harg3 : arg3.IsWhole) (arg4 : Memref sig .tc .vmem S128x128 .f32) (harg4 : arg4.IsWhole)
    (arg5 : Memref sig .tc .vmem S1x128 .f32) (harg5 : arg5.IsWhole) (arg6 : Memref sig .tc .vmem S400x10000 .f32) (harg6 : arg6.IsWhole)
    (arg7 : Memref sig .tc .vmem S400x128 .f32) (harg7 : arg7.IsWhole) (arg8 : Memref sig .tc .vmem S10000x128 .f32) (harg8 : arg8.IsWhole)
    (arg9 : Memref sig .tc .vmem S10000x128 .f32) (harg9 : arg9.IsWhole)
    (hA : condA i) (hB : condB i) (hC : ¬condC i)
    (x : Vec F S10000x128 .f32) (w1 : Vec F S128x128 .f32) (b1 : Vec F S1x128 .f32) (w2 : Vec F S128x128 .f32) (g : Vec F S400x10000 .f32) (s2 : Vec F S10000x128 .f32) :
    Σ' (LA : List (View.Piece (Elt F) S10000x128 .f32)), { LB : List (View.Piece (Elt F) S10000x128 .f32) //
      ∀ (E : Set ℕ) (K : PUnit → sProp 𝕄),
        iprop(owns (c : Thread nD τ) arg1 fullShare x ∗ owns (c : Thread nD τ) arg2 fullShare w1 ∗ owns (c : Thread nD τ) arg3 fullShare b1 ∗ owns (c : Thread nD τ) arg4 fullShare w2 ∗ owns (c : Thread nD τ) arg6 fullShare g
            ∗ (∃ d, owns (c : Thread nD τ) arg8 fullShare d) ∗ owns (c : Thread nD τ) arg9 fullShare s2
            ∗ (iprop(owns (c : Thread nD τ) arg1 fullShare x ∗ owns (c : Thread nD τ) arg2 fullShare w1 ∗ owns (c : Thread nD τ) arg3 fullShare b1 ∗ owns (c : Thread nD τ) arg4 fullShare w2 ∗ owns (c : Thread nD τ) arg6 fullShare g
                ∗ (∃ f, arg8.view.loc (c : Thread nD τ) ↦[arg8.view.set]{fullShare} arg8.view.writes (Elt F) f LA)
                ∗ arg9.view.loc (c : Thread nD τ) ↦[arg9.view.set]{fullShare} arg9.view.writes (Elt F) (harg9.unread s2) LB) -∗ K ⟨⟩))
          ⊢ wp frame (wpE (defs₀ (F := F)) Variants.none c none) E (cc0__gcn_kernel i arg1 harg1 arg2 harg2 arg3 harg3 arg4 harg4 arg5 harg5 arg6 harg6 arg7 harg7 arg8 harg8 arg9 harg9) K } := by
  refine ⟨?_, ?_, fun E K => ?run⟩
  case run =>
    simp only [cc0__gcn_kernel_eq_skeleton]; unfold cc0__gcn_kernel_skel
    unfold owns
    iintro ⟨⟨%f1, %hf1, H1⟩, ⟨%f2, %hf2, H2⟩, ⟨%f3, %hf3, H3⟩, ⟨%f4, %hf4, H4⟩, ⟨%f6, %hf6, H6⟩, ⟨%d8, %f8, -, H8⟩, ⟨%f9, %hf9, H9⟩, Hk⟩
    obtain rfl := harg1.eq_unread hf1; obtain rfl := harg2.eq_unread hf2
    obtain rfl := harg3.eq_unread hf3; obtain rfl := harg4.eq_unread hf4; obtain rfl := harg6.eq_unread hf6
    obtain rfl := harg9.eq_unread hf9
    sl_exec (disch := first | exact hA | exact hB | exact hC)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H6]
    · iexists _; isplitr; · ipureintro; exact harg6.read_unread _
      iexact H6
    isplitl [H8]; · iexists _; iexact H8
    iexact H9

/-- The first scratch's one piece: the whole buffer, holding `x · W1`. -/
theorem runA_piecesA (c : Dev nD) (i : grid0.Coords)
    (arg1 : Memref sig .tc .vmem S10000x128 .f32) (harg1 : arg1.IsWhole) (arg2 : Memref sig .tc .vmem S128x128 .f32) (harg2 : arg2.IsWhole)
    (arg3 : Memref sig .tc .vmem S1x128 .f32) (harg3 : arg3.IsWhole) (arg4 : Memref sig .tc .vmem S128x128 .f32) (harg4 : arg4.IsWhole)
    (arg5 : Memref sig .tc .vmem S1x128 .f32) (harg5 : arg5.IsWhole) (arg6 : Memref sig .tc .vmem S400x10000 .f32) (harg6 : arg6.IsWhole)
    (arg7 : Memref sig .tc .vmem S400x128 .f32) (harg7 : arg7.IsWhole) (arg8 : Memref sig .tc .vmem S10000x128 .f32) (harg8 : arg8.IsWhole)
    (arg9 : Memref sig .tc .vmem S10000x128 .f32) (harg9 : arg9.IsWhole)
    (hA : condA i) (hB : condB i) (hC : ¬condC i)
    (x : Vec F S10000x128 .f32) (w1 : Vec F S128x128 .f32) (b1 : Vec F S1x128 .f32) (w2 : Vec F S128x128 .f32) (g : Vec F S400x10000 .f32) (s2 : Vec F S10000x128 .f32) :
    (runA c i arg1 harg1 arg2 harg2 arg3 harg3 arg4 harg4 arg5 harg5 arg6 harg6 arg7 harg7 arg8 harg8 arg9 harg9 hA hB hC x w1 b1 w2 g s2).1
      = [⟨Rect.unit (s := S10000x128) ![0, 0] S10000x128.size inb_S10000x128_S10000x128_0_0, k0_pay1 x w1⟩] := by
  unfold runA; dsimp only
  unfold runA.sl.H8_1
  simp only [View.readAt_eq_ld, Memref.IsWhole.read_unread, View.ld_unit_zero (S := S400x10000) hz2, View.ld_unit_zero (S := S10000x128) hz2,
    View.ld_unit_zero (S := S1x128) hz2, View.ld_unit_zero (S := S128x128) hz2, View.ld_unit_zero (S := S400x128) hz2]

/-- The second scratch's one piece: rows 0 … 399, holding the second support's rows computed from the first block of
    `g`, the first support just stored, `b1` and `W2`. -/
theorem runA_piecesB (c : Dev nD) (i : grid0.Coords)
    (arg1 : Memref sig .tc .vmem S10000x128 .f32) (harg1 : arg1.IsWhole) (arg2 : Memref sig .tc .vmem S128x128 .f32) (harg2 : arg2.IsWhole)
    (arg3 : Memref sig .tc .vmem S1x128 .f32) (harg3 : arg3.IsWhole) (arg4 : Memref sig .tc .vmem S128x128 .f32) (harg4 : arg4.IsWhole)
    (arg5 : Memref sig .tc .vmem S1x128 .f32) (harg5 : arg5.IsWhole) (arg6 : Memref sig .tc .vmem S400x10000 .f32) (harg6 : arg6.IsWhole)
    (arg7 : Memref sig .tc .vmem S400x128 .f32) (harg7 : arg7.IsWhole) (arg8 : Memref sig .tc .vmem S10000x128 .f32) (harg8 : arg8.IsWhole)
    (arg9 : Memref sig .tc .vmem S10000x128 .f32) (harg9 : arg9.IsWhole)
    (hA : condA i) (hB : condB i) (hC : ¬condC i)
    (x : Vec F S10000x128 .f32) (w1 : Vec F S128x128 .f32) (b1 : Vec F S1x128 .f32) (w2 : Vec F S128x128 .f32) (g : Vec F S400x10000 .f32) (s2 : Vec F S10000x128 .f32) :
    (runA c i arg1 harg1 arg2 harg2 arg3 harg3 arg4 harg4 arg5 harg5 arg6 harg6 arg7 harg7 arg8 harg8 arg9 harg9 hA hB hC x w1 b1 w2 g s2).2.1
      = [⟨Rect.unit (s := S10000x128) (k0_off1 i) S400x128.size (k0_off1_inb i hB), k0_pay2 g (k0_pay1 x w1) b1 w2⟩] := by
  unfold runA; dsimp only
  unfold runA.sl.v10 runA.sl.H8_1
  simp only [View.readAt_eq_ld, Memref.IsWhole.read_unread, View.ld_unit_zero (S := S400x10000) hz2, View.ld_unit_zero (S := S10000x128) hz2,
    View.ld_unit_zero (S := S1x128) hz2, View.ld_unit_zero (S := S128x128) hz2, View.ld_unit_zero (S := S400x128) hz2]
  have e := View.readCov_unit_zero (Val := Elt F) (S := S10000x128) (e := .f32) arg8.view hz2 inb_S10000x128_S10000x128_0_0 (k0_pay1 x w1)
  first
    | rw [e]
    | exact congrArg (fun z => [(⟨Rect.unit (s := S10000x128) (k0_off1 i) S400x128.size (k0_off1_inb i hB), k0_pay2 g z b1 w2⟩ : View.Piece (Elt F) S10000x128 .f32)]) e

end Cert.KernelIdeal.Body

end
-- ==== Proof.KRunC.lean ====
/-
  The body at a point of the second phase (t ≥ 25): the first two conditionals fall through; the third loads the
  point's block of `g`, the whole second scratch and `b2`, and stores `g_u · s2 + b2` over the whole output
  block.
-/
import proofs.«141898_g57621281243476_cont_9to1c4b_629_17_alg».proof.Proof.KRunA

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The pieces the body's one store leaves in the output block in the second phase, with the proof that the body runs
    to its continuation holding the loaded buffers as they were and the output block with those pieces written. -/
noncomputable def runC (c : Dev nD) (i : grid0.Coords)
    (arg1 : Memref sig .tc .vmem S10000x128 .f32) (harg1 : arg1.IsWhole) (arg2 : Memref sig .tc .vmem S128x128 .f32) (harg2 : arg2.IsWhole)
    (arg3 : Memref sig .tc .vmem S1x128 .f32) (harg3 : arg3.IsWhole) (arg4 : Memref sig .tc .vmem S128x128 .f32) (harg4 : arg4.IsWhole)
    (arg5 : Memref sig .tc .vmem S1x128 .f32) (harg5 : arg5.IsWhole) (arg6 : Memref sig .tc .vmem S400x10000 .f32) (harg6 : arg6.IsWhole)
    (arg7 : Memref sig .tc .vmem S400x128 .f32) (harg7 : arg7.IsWhole) (arg8 : Memref sig .tc .vmem S10000x128 .f32) (harg8 : arg8.IsWhole)
    (arg9 : Memref sig .tc .vmem S10000x128 .f32) (harg9 : arg9.IsWhole)
    (hA : ¬condA i) (hB : ¬condB i) (hC : condC i)
    (b2 : Vec F S1x128 .f32) (g : Vec F S400x10000 .f32) (s2 : Vec F S10000x128 .f32) :
    { LO : List (View.Piece (Elt F) S400x128 .f32) //
      ∀ (E : Set ℕ) (K : PUnit → sProp 𝕄),
        iprop(owns (c : Thread nD τ) arg5 fullShare b2 ∗ owns (c : Thread nD τ) arg6 fullShare g ∗ (∃ d, owns (c : Thread nD τ) arg7 fullShare d) ∗ owns (c : Thread nD τ) arg9 fullShare s2
            ∗ (iprop(owns (c : Thread nD τ) arg5 fullShare b2 ∗ owns (c : Thread nD τ) arg6 fullShare g
                ∗ (∃ f, arg7.view.loc (c : Thread nD τ) ↦[arg7.view.set]{fullShare} arg7.view.writes (Elt F) f LO)
                ∗ owns (c : Thread nD τ) arg9 fullShare s2) -∗ K ⟨⟩))
          ⊢ wp frame (wpE (defs₀ (F := F)) Variants.none c none) E (cc0__gcn_kernel i arg1 harg1 arg2 harg2 arg3 harg3 arg4 harg4 arg5 harg5 arg6 harg6 arg7 harg7 arg8 harg8 arg9 harg9) K } := by
  refine ⟨?_, fun E K => ?run⟩
  case run =>
    simp only [cc0__gcn_kernel_eq_skeleton]; unfold cc0__gcn_kernel_skel
    unfold owns
    iintro ⟨⟨%f5, %hf5, H5⟩, ⟨%f6, %hf6, H6⟩, ⟨%d7, %f7, -, H7⟩, ⟨%f9, %hf9, H9⟩, Hk⟩
    obtain rfl := harg5.eq_unread hf5; obtain rfl := harg6.eq_unread hf6; obtain rfl := harg9.eq_unread hf9
    sl_exec (disch := first | exact hA | exact hB | exact hC)
    sl_step
    iapply Hk
    isplitl [H5]
    · iexists _; isplitr; · ipureintro; exact harg5.read_unread _
      iexact H5
    isplitl [H6]
    · iexists _; isplitr; · ipureintro; exact harg6.read_unread _
      iexact H6
    isplitl [H7]; · iexists _; iexact H7
    iexists _; isplitr; · ipureintro; exact harg9.read_unread _
    iexact H9

/-- The output block's one piece: the whole block, holding `g_u · s2 + b2`. -/
theorem runC_pieces (c : Dev nD) (i : grid0.Coords)
    (arg1 : Memref sig .tc .vmem S10000x128 .f32) (harg1 : arg1.IsWhole) (arg2 : Memref sig .tc .vmem S128x128 .f32) (harg2 : arg2.IsWhole)
    (arg3 : Memref sig .tc .vmem S1x128 .f32) (harg3 : arg3.IsWhole) (arg4 : Memref sig .tc .vmem S128x128 .f32) (harg4 : arg4.IsWhole)
    (arg5 : Memref sig .tc .vmem S1x128 .f32) (harg5 : arg5.IsWhole) (arg6 : Memref sig .tc .vmem S400x10000 .f32) (harg6 : arg6.IsWhole)
    (arg7 : Memref sig .tc .vmem S400x128 .f32) (harg7 : arg7.IsWhole) (arg8 : Memref sig .tc .vmem S10000x128 .f32) (harg8 : arg8.IsWhole)
    (arg9 : Memref sig .tc .vmem S10000x128 .f32) (harg9 : arg9.IsWhole)
    (hA : ¬condA i) (hB : ¬condB i) (hC : condC i)
    (b2 : Vec F S1x128 .f32) (g : Vec F S400x10000 .f32) (s2 : Vec F S10000x128 .f32) :
    (runC c i arg1 harg1 arg2 harg2 arg3 harg3 arg4 harg4 arg5 harg5 arg6 harg6 arg7 harg7 arg8 harg8 arg9 harg9 hA hB hC b2 g s2).1
      = [⟨Rect.unit (s := S400x128) ![0, 0] S400x128.size inb_S400x128_S400x128_0_0, k0_pay3 g s2 b2⟩] := by
  unfold runC; dsimp only
  simp only [View.readAt_eq_ld, Memref.IsWhole.read_unread, View.ld_unit_zero (S := S400x10000) hz2, View.ld_unit_zero (S := S10000x128) hz2,
    View.ld_unit_zero (S := S1x128) hz2, View.ld_unit_zero (S := S128x128) hz2, View.ld_unit_zero (S := S400x128) hz2]

end Cert.KernelIdeal.Body

end
-- ==== Proof.KBody.lean ====
/-
  The body obligation of the graph-convolution kernel, at every float instance.

  What the two scratch buffers hold between points is stated by a tracking invariant: after the first point the
  first scratch holds `s1 = x · W1`; after point `n` the rows `0 … 400 (n + 1) - 1` of the second scratch hold
  the rows of `s2 = relu (g · s1 + b1) · W2` (row block `k` computed from the `k`-th block of `g`), whatever the
  later rows hold. From point 25 on all 10000 rows are there, so a point `t ≥ 25` leaves
  `g_u · s2 + b2` (its own block of `g`) in the output block, a function of the arguments alone.
-/
import proofs.«141898_g57621281243476_cont_9to1c4b_629_17_alg».proof.Proof.KRunC

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem cfgN : cfg0.N = 50 := N_0

/-- The first point of the grid. -/
def t0 : Fin cfg0.N := ⟨0, by rw [cfgN]; omega⟩

/-! ## The values the kernel computes, as functions of the argument arrays -/

/-- The first support matrix `x · W1`: what point 0 stores over the first scratch. -/
def S1 (c : Dev nD) : Vec F S10000x128 .f32 := k0_pay1 (iblk m c 0 t0) (iblk m c 1 t0)

/-- Rows `400 k … 400 k + 399` of the second support matrix: `relu (g_k · s1 + b1) · W2`. -/
def P2 (c : Dev nD) (k : Fin cfg0.N) : Vec F S400x128 .f32 := k0_pay2 (iblk m c 5 k) (S1 m c) (iblk m c 2 k) (iblk m c 3 k)

/-- The block of 400 rows a row of the second support matrix lies in, as a point of the grid's first phase, -/
def rowBlk (j : S10000x128.Idx) : Fin cfg0.N := ⟨(j 0).val / 400, by have := ValueIdx.idx2_lt0 j; rw [cfgN]; omega⟩
/-- and its position within that block. -/
def rowIn (j : S10000x128.Idx) : S400x128.Idx :=
  ValueIdx.ix2 (⟨(j 0).val % 400, Nat.mod_lt _ (by norm_num)⟩ : Fin 400) (⟨(j 1).val, ValueIdx.idx2_lt1 j⟩ : Fin 128)

/-- The second support matrix, whole. -/
def S2 (c : Dev nD) : Vec F S10000x128 .f32 := fun j => P2 m c (rowBlk j) (rowIn j)

/-- The output block a point of the second phase stores: `g_u · s2 + b2` with the point's block of `g`. -/
def P3 (c : Dev nD) (t : Fin cfg0.N) : Vec F S400x128 .f32 := k0_pay3 (iblk m c 5 t) (S2 m c) (iblk m c 4 t)

/-- Contents of the second scratch whose first `400 n` rows are the second support matrix's. -/
def Good (c : Dev nD) (n : ℕ) (X : Vec F S10000x128 .f32) : Prop :=
  ∀ j : S10000x128.Idx, (j 0).val < 400 * n → X j = S2 m c j

/-- Storing block `t`'s rows at row offset `400 t` extends the good rows by 400. -/
theorem good_step (c : Dev nD) (t : Fin cfg0.N) (hlt : t.val < 25) (v : View sig .tc .vmem S10000x128 .f32) (f : v.ty.Contents (Elt F))
    (X : Vec F S10000x128 .f32) (hf : v.read (Elt F) f = X) (hX : Good m c t.val X)
    (inb : ∀ a : Fin 2, k0_off1 (grid0.coords t) a + S400x128.size a ≤ S10000x128.size a)
    (w : (Rect.unit (s := S10000x128) (k0_off1 (grid0.coords t)) S400x128.size inb).shape.Idx → Elt F .f32) (hw : w = P2 m c t) :
    Good m c (t.val + 1) (v.read (Elt F) (v.writes (Elt F) f [(⟨Rect.unit (s := S10000x128) (k0_off1 (grid0.coords t)) S400x128.size inb, w⟩ : View.Piece (Elt F) S10000x128 .f32)])) := by
  intro j hj
  by_cases h : 400 * t.val ≤ (j 0).val
  · rw [View.read_writes_cons_rows_of_mem v f inb w [] j (rowIn j) (off_eq t)
      (by show (j 0).val = 400 * t.val + (j 0).val % 400; omega) rfl]
    subst hw
    have hb : rowBlk j = t := Fin.ext (by show (j 0).val / 400 = t.val; omega)
    unfold S2; rw [hb]
  · rw [View.read_writes_cons_rows_of_not_mem v f inb w [] j (off_eq t) (rfl : S400x128.size (0 : Fin 2) = 400) (Or.inl (by omega)),
      View.writes_nil, hf]
    exact hX j (by omega)

/-- One whole-buffer store leaves its payload, whatever the buffer held. -/
theorem read_whole_store {S : Shape} (v : View sig .tc .vmem S .f32) (f : v.ty.Contents (Elt F)) {off : Fin S.rank → Nat} (h : off = fun _ => 0)
    (inb : ∀ a, off a + S.size a ≤ S.size a) (w : S.Idx → Elt F .f32) :
    v.read (Elt F) (v.writes (Elt F) f [(⟨Rect.unit off S.size inb, w⟩ : View.Piece (Elt F) S .f32)]) = w := by
  rw [View.read_writes_eq_canon v f _ (fun y => ⟨_, List.mem_singleton_self _, View.mem_set_unit_zero h inb y⟩), View.canon_unit_zero h]

/-! ## The tracking invariant -/

/-- Before point `n`: at the start the class's invariant (both scratch buffers at anything); afterwards the first
    scratch at `s1`, the second at contents whose first `400 n` rows are `s2`'s, and the generator register. -/
def Phi (c : Dev nD) : ℕ → sProp 𝕄
  | 0 => Pipeline.ΦA spec0 c
  | n + 1 => iprop(iprop(owns (c : Thread nD τ) scA fullShare (S1 m c) ∗ (∃ X, ⌜Good m c (n + 1) X⌝ ∗ owns (c : Thread nD τ) scB fullShare X)) ∗ (∃ r, prngReg c r))

theorem Phi_succ (c : Dev nD) (n : ℕ) :
    Phi m c (n + 1) = iprop(iprop(owns (c : Thread nD τ) scA fullShare (S1 m c) ∗ (∃ X, ⌜Good m c (n + 1) X⌝ ∗ owns (c : Thread nD τ) scB fullShare X)) ∗ (∃ r, prngReg c r)) := rfl

theorem Phi_pos (c : Dev nD) (n : ℕ) (hn : n ≠ 0) :
    Phi m c n = iprop(iprop(owns (c : Thread nD τ) scA fullShare (S1 m c) ∗ (∃ X, ⌜Good m c n X⌝ ∗ owns (c : Thread nD τ) scB fullShare X)) ∗ (∃ r, prngReg c r)) := by
  cases n with
  | zero => exact absurd rfl hn
  | succ n => rfl

/-! ## The proof data -/

/-- The arrays as the region finds them; after the body each input's buffer at its block and the output's at the
    second phase's block (consulted only where the window is live); the tracking invariant; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => P3 m c t
  Φ t := Phi m c t.val
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = P3 m c t := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d

theorem leaves0 (c : Dev nD) (t : Fin cfg0.N) : (dats m 0 c).leavesExact 0 t = owns (c : Thread nD τ) (ms0 t) fullShare (iblk m c 0 t) := by
  unfold Dat.leavesExact; rw [live0 t, after0]
theorem leaves1 (c : Dev nD) (t : Fin cfg0.N) : (dats m 0 c).leavesExact 1 t = owns (c : Thread nD τ) (ms1 t) fullShare (iblk m c 1 t) := by
  unfold Dat.leavesExact; rw [live1 t, after1]
theorem leaves2 (c : Dev nD) (t : Fin cfg0.N) : (dats m 0 c).leavesExact 2 t = owns (c : Thread nD τ) (ms2 t) fullShare (iblk m c 2 t) := by
  unfold Dat.leavesExact; rw [live2 t, after2]
theorem leaves3 (c : Dev nD) (t : Fin cfg0.N) : (dats m 0 c).leavesExact 3 t = owns (c : Thread nD τ) (ms3 t) fullShare (iblk m c 3 t) := by
  unfold Dat.leavesExact; rw [live3 t, after3]
theorem leaves4 (c : Dev nD) (t : Fin cfg0.N) : (dats m 0 c).leavesExact 4 t = owns (c : Thread nD τ) (ms4 t) fullShare (iblk m c 4 t) := by
  unfold Dat.leavesExact; rw [live4 t, after4]
theorem leaves5 (c : Dev nD) (t : Fin cfg0.N) : (dats m 0 c).leavesExact 5 t = owns (c : Thread nD τ) (ms5 t) fullShare (iblk m c 5 t) := by
  unfold Dat.leavesExact; rw [live5 t, after5]
theorem leaves6 (c : Dev nD) (t : Fin cfg0.N) (h : 25 ≤ t.val) : (dats m 0 c).leavesExact 6 t = owns (c : Thread nD τ) (ms6 t) fullShare (P3 m c t) := by
  unfold Dat.leavesExact; rw [live6 t h, after6]

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 4000000 in
/-- The body at any point, by the phase the point is in. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).owesAt () t.succ = (dats m 0 c).owesAt () t.castSucc from rfl]
  rw [show (dats m 0 c).Φ t.succ = Phi m c (t.val + 1) from rfl, show (dats m 0 c).Φ t.castSucc = Phi m c t.val from rfl, Phi_succ]
  rw [leaves0, leaves1, leaves2, leaves3, leaves4, leaves5]
  have hN : t.val < 50 := lt_of_lt_of_eq t.isLt cfgN
  by_cases hz : t.val = 0
  · -- the first point
    have ht : t = t0 := Fin.ext hz
    subst ht
    have hlt : t0.val < 25 := by omega
    have hA : condA (grid0.coords t0) := (hcondA t0).mpr hz
    have hB : condB (grid0.coords t0) := (hcondB t0).mpr hlt
    have hC : ¬condC (grid0.coords t0) := fun h => by have := (hcondC t0).mp h; omega
    rw [Dat.leavesExact_idle (dats m 0 c) 6 t0 (idle6 t0 hlt) (noFlush6 t0 hlt)]
    rw [show Phi m c t0.val = Pipeline.ΦA spec0 c from by rw [hz]; rfl, PhiA_eq]
    iintro ⟨⟨⟨⟨%dA, HA⟩, ⟨%dB, HB⟩⟩, Hg⟩, Ho, ⟨%d0, H0⟩, ⟨%d1, H1⟩, ⟨%d2, H2⟩, ⟨%d3, H3⟩, ⟨%d4, H4⟩, ⟨%d5, H5⟩, H6⟩
    iapply ((runA c (grid0.coords t0) (ms0 t0) (hs0 t0) (ms1 t0) (hs1 t0) (ms2 t0) (hs2 t0) (ms3 t0) (hs3 t0) (ms4 t0) (hs4 t0) (ms5 t0) (hs5 t0) (ms6 t0) (hs6 t0) scA (Memref.isWhole_whole _) scB (Memref.isWhole_whole _) hA hB hC (iblk m c 0 t0) (iblk m c 1 t0) (iblk m c 2 t0) (iblk m c 3 t0) (iblk m c 5 t0) dB).2.2 Set.univ _)
    isplitl [H0]; · iexact H0
    isplitl [H1]; · iexact H1
    isplitl [H2]; · iexact H2
    isplitl [H3]; · iexact H3
    isplitl [H5]; · iexact H5
    isplitl [HA]; · iexists _; iexact HA
    isplitl [HB]; · iexact HB
    iintro ⟨H0, H1, H2, H3, H5, ⟨%fA, HA⟩, HB⟩
    isplitl [HA HB Hg]
    · isplitl [HA HB]
      · isplitl [HA]
        · unfold owns; iexists _; isplitr
          swap; · iexact HA
          ipureintro
          rw [runA_piecesA, read_whole_store _ _ hz2]; rfl
        iexists _; isplitr
        swap
        · unfold owns; iexists _; isplitr
          swap; · iexact HB
          ipureintro; rfl
        ipureintro
        rw [runA_piecesB]
        exact good_step m c t0 hlt _ _ dB (Memref.IsWhole.read_unread _ _) (fun j hj => absurd hj (by rw [hz]; omega)) _ _ rfl
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · by_cases hlt : t.val < 25
    · -- a later point of the first phase
      have hA : ¬condA (grid0.coords t) := fun h => hz ((hcondA t).mp h)
      have hB : condB (grid0.coords t) := (hcondB t).mpr hlt
      have hC : ¬condC (grid0.coords t) := fun h => by have := (hcondC t).mp h; omega
      rw [Dat.leavesExact_idle (dats m 0 c) 6 t (idle6 t hlt) (noFlush6 t hlt)]
      rw [Phi_pos m c _ hz]
      iintro ⟨⟨⟨HA, ⟨%X, %hX, HB⟩⟩, Hg⟩, Ho, ⟨%d0, H0⟩, ⟨%d1, H1⟩, ⟨%d2, H2⟩, ⟨%d3, H3⟩, ⟨%d4, H4⟩, ⟨%d5, H5⟩, H6⟩
      iapply ((runB c (grid0.coords t) (ms0 t) (hs0 t) (ms1 t) (hs1 t) (ms2 t) (hs2 t) (ms3 t) (hs3 t) (ms4 t) (hs4 t) (ms5 t) (hs5 t) (ms6 t) (hs6 t) scA (Memref.isWhole_whole _) scB (Memref.isWhole_whole _) hA hB hC (iblk m c 2 t) (iblk m c 3 t) (iblk m c 5 t) (S1 m c) X).2 Set.univ _)
      isplitl [H2]; · iexact H2
      isplitl [H3]; · iexact H3
      isplitl [H5]; · iexact H5
      isplitl [HA]; · iexact HA
      isplitl [HB]; · iexact HB
      iintro ⟨H2, H3, H5, HA, HB⟩
      isplitl [HA HB Hg]
      · isplitl [HA HB]
        · isplitl [HA]; · iexact HA
          iexists _; isplitr
          swap
          · unfold owns; iexists _; isplitr
            swap; · iexact HB
            ipureintro; rfl
          ipureintro
          rw [runB_pieces]
          exact good_step m c t hlt _ _ X (Memref.IsWhole.read_unread _ _) hX _ _ rfl
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · -- a point of the second phase
      have hge : 25 ≤ t.val := by omega
      have hA : ¬condA (grid0.coords t) := fun h => hz ((hcondA t).mp h)
      have hB : ¬condB (grid0.coords t) := fun h => hlt ((hcondB t).mp h)
      have hC : condC (grid0.coords t) := (hcondC t).mpr hge
      rw [leaves6 m c t hge]
      rw [Phi_pos m c _ hz]
      iintro ⟨⟨⟨HA, ⟨%X, %hX, HB⟩⟩, Hg⟩, Ho, ⟨%d0, H0⟩, ⟨%d1, H1⟩, ⟨%d2, H2⟩, ⟨%d3, H3⟩, ⟨%d4, H4⟩, ⟨%d5, H5⟩, ⟨%d6, H6⟩⟩
      have hXS : X = S2 m c := funext fun j => hX j (by have := ValueIdx.idx2_lt0 j; omega)
      iapply ((runC c (grid0.coords t) (ms0 t) (hs0 t) (ms1 t) (hs1 t) (ms2 t) (hs2 t) (ms3 t) (hs3 t) (ms4 t) (hs4 t) (ms5 t) (hs5 t) (ms6 t) (hs6 t) scA (Memref.isWhole_whole _) scB (Memref.isWhole_whole _) hA hB hC (iblk m c 4 t) (iblk m c 5 t) X).2 Set.univ _)
      isplitl [H4]; · iexact H4
      isplitl [H5]; · iexact H5
      isplitl [H6]; · iexists _; iexact H6
      isplitl [HB]; · iexact HB
      iintro ⟨H4, H5, ⟨%f6, H6⟩, HB⟩
      isplitl [HA HB Hg]
      · isplitl [HA HB]
        · isplitl [HA]; · iexact HA
          iexists X; isplitr
          swap; · iexact HB
          ipureintro
          exact fun j _ => hX j (by have := ValueIdx.idx2_lt0 j; omega)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro
      rw [runC_pieces, read_whole_store _ _ hz2, hXS]; rfl

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = Pipeline.ΦA spec0 c from rfl]
  try exact Idealize.SL.BI.Entails.refl _

/-- After the last point the invariant gives the class's back: what the scratch buffers hold is forgotten. -/
theorem hout (c : Dev nD) : (dats m 0 c).Φ (Fin.last cfg0.N) ⊢ Pipeline.ΦA spec0 c := by
  rw [show (dats m 0 c).Φ (Fin.last cfg0.N) = Phi m c (Fin.last cfg0.N).val from rfl,
    Phi_pos m c _ (by rw [Fin.val_last, cfgN]; omega), PhiA_eq]
  iintro ⟨⟨HA, ⟨%X, -, HB⟩⟩, Hg⟩
  isplitl [HA HB]
  · isplitl [HA]
    · iexists _; iexact HA
    iexists _; iexact HB
  iexact Hg

/-! ## The run -/

set_option backward.isDefEq.respectTransparency.types false in
/-- Every weakly fair execution of @main terminates, every array of the pipeline at what the library computes from the
    proof data and every other unscoped buffer as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m)
    (hmain := hmain m Variants.none) (hA := A_eq m) (hin := hin m) (hout := hout m)

/-- The frame: the argument arrays end as they were. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

end Cert.KernelIdeal.Body

end
-- ==== Proof.KDots.lean ====
/-
  The kernel's matrix products at an index, over the extended reals: each `tpu.matmul` into a zero accumulator is
  the sum over the contracted axis of the products of the left operand's row entry and the right operand's column
  entry.
-/
import proofs.«141898_g57621281243476_cont_9to1c4b_629_17_alg».proof.Proof.Gen.KernelIdeal
import Idealize.ShloMosaic.Lib.Pipeline.Value
import Idealize.ShloMosaic.Lib.ValueIdx
import Idealize.ShloMosaic.PureOps.Ideal.Laws

noncomputable section

open scoped BigOperators

namespace Cert.KernelIdeal.Dots

open Cert.KernelIdeal Idealize.ShloMosaic Idealize.ShloMosaic.TcCoe

/-! ### `dot_S400x10000_S10000x128_S400x128_1_0_0_1_n_n` -/

theorem mmG_l0 (i : S400x128.Idx) (q : dot_S400x10000_S10000x128_S400x128_1_0_0_1_n_n.contr.Idx) : (dot_S400x10000_S10000x128_S400x128_1_0_0_1_n_n.lhsIdx i q 0).val = (i 0).val := by
  unfold DotDims.lhsIdx
  rw [dif_neg (show ¬(0 : Fin S400x10000.rank) ∈ dot_S400x10000_S10000x128_S400x128_1_0_0_1_n_n.lhsBatch by decide), dif_pos (show (0 : Fin S400x10000.rank) ∈ dot_S400x10000_S10000x128_S400x128_1_0_0_1_n_n.lhsNonContracting by decide)]
  rfl
theorem mmG_l1 (i : S400x128.Idx) (q : dot_S400x10000_S10000x128_S400x128_1_0_0_1_n_n.contr.Idx) : (dot_S400x10000_S10000x128_S400x128_1_0_0_1_n_n.lhsIdx i q 1).val = (q ⟨0, by decide⟩).val :=
  dot_S400x10000_S10000x128_S400x128_1_0_0_1_n_n.lhsIdx_val_of_single rfl i q
theorem mmG_r0 (i : S400x128.Idx) (q : dot_S400x10000_S10000x128_S400x128_1_0_0_1_n_n.contr.Idx) : (dot_S400x10000_S10000x128_S400x128_1_0_0_1_n_n.rhsIdx i q 0).val = (q ⟨0, by decide⟩).val :=
  dot_S400x10000_S10000x128_S400x128_1_0_0_1_n_n.rhsIdx_val_of_single rfl i q
theorem mmG_r1 (i : S400x128.Idx) (q : dot_S400x10000_S10000x128_S400x128_1_0_0_1_n_n.contr.Idx) : (dot_S400x10000_S10000x128_S400x128_1_0_0_1_n_n.rhsIdx i q 1).val = (i 1).val := by
  unfold DotDims.rhsIdx
  rw [dif_neg (show ¬(1 : Fin S10000x128.rank) ∈ dot_S400x10000_S10000x128_S400x128_1_0_0_1_n_n.rhsBatch by decide), dif_pos (show (1 : Fin S10000x128.rank) ∈ dot_S400x10000_S10000x128_S400x128_1_0_0_1_n_n.rhsNonContracting by decide)]
  rfl
/-- The left operand's index for output index `i` and contraction coordinate `k`: row `i 0`, column `k`. -/
abbrev mmG_li (i : S400x128.Idx) (k : Fin 10000) : S400x10000.Idx := fun a => match a with
  | ⟨0, _⟩ => ⟨(i 0).val, (i 0).isLt⟩
  | ⟨1, _⟩ => ⟨k.val, k.isLt⟩
/-- The right operand's: row `k`, column `i 1`. -/
abbrev mmG_ri (i : S400x128.Idx) (k : Fin 10000) : S10000x128.Idx := fun a => match a with
  | ⟨0, _⟩ => ⟨k.val, k.isLt⟩
  | ⟨1, _⟩ => ⟨(i 1).val, (i 1).isLt⟩
/-- The matrix unit's product into a zero accumulator, at an index, is the plain sum over the contracted axis. -/
theorem mmG_apply (a : FVec Ideal S400x10000 .f32) (b : FVec Ideal S10000x128 .f32) (i : S400x128.Idx) :
    matmul (F := Ideal) dot_S400x10000_S10000x128_S400x128_1_0_0_1_n_n none a b (constant S400x128 .f32 0x00000000#32) i = ∑ k : Fin 10000, a (mmG_li i k) * b (mmG_ri i k) := by
  simp only [matmul]
  rw [Ideal.matmul_constant_zero_apply, ← Equiv.sum_comp (ValueIdx.contrEquiv1 dot_S400x10000_S10000x128_S400x128_1_0_0_1_n_n 10000 rfl rfl).symm]
  refine Finset.sum_congr rfl fun k _ => ?_
  have hk := ValueIdx.contrEquiv1_symm_val dot_S400x10000_S10000x128_S400x128_1_0_0_1_n_n 10000 rfl rfl k
  have el : dot_S400x10000_S10000x128_S400x128_1_0_0_1_n_n.lhsIdx i ((ValueIdx.contrEquiv1 dot_S400x10000_S10000x128_S400x128_1_0_0_1_n_n 10000 rfl rfl).symm k) = mmG_li i k := funext fun a => Fin.ext (by
    match a with
    | ⟨0, _⟩ => exact mmG_l0 _ _
    | ⟨1, _⟩ => exact (mmG_l1 _ _).trans hk)
  have er : dot_S400x10000_S10000x128_S400x128_1_0_0_1_n_n.rhsIdx i ((ValueIdx.contrEquiv1 dot_S400x10000_S10000x128_S400x128_1_0_0_1_n_n 10000 rfl rfl).symm k) = mmG_ri i k := funext fun a => Fin.ext (by
    match a with
    | ⟨0, _⟩ => exact (mmG_r0 _ _).trans hk
    | ⟨1, _⟩ => exact mmG_r1 _ _)
  rw [el, er]

/-! ### `dot_S400x128_S128x128_S400x128_1_0_0_1_n_n` -/

theorem mmW_l0 (i : S400x128.Idx) (q : dot_S400x128_S128x128_S400x128_1_0_0_1_n_n.contr.Idx) : (dot_S400x128_S128x128_S400x128_1_0_0_1_n_n.lhsIdx i q 0).val = (i 0).val := by
  unfold DotDims.lhsIdx
  rw [dif_neg (show ¬(0 : Fin S400x128.rank) ∈ dot_S400x128_S128x128_S400x128_1_0_0_1_n_n.lhsBatch by decide), dif_pos (show (0 : Fin S400x128.rank) ∈ dot_S400x128_S128x128_S400x128_1_0_0_1_n_n.lhsNonContracting by decide)]
  rfl
theorem mmW_l1 (i : S400x128.Idx) (q : dot_S400x128_S128x128_S400x128_1_0_0_1_n_n.contr.Idx) : (dot_S400x128_S128x128_S400x128_1_0_0_1_n_n.lhsIdx i q 1).val = (q ⟨0, by decide⟩).val :=
  dot_S400x128_S128x128_S400x128_1_0_0_1_n_n.lhsIdx_val_of_single rfl i q
theorem mmW_r0 (i : S400x128.Idx) (q : dot_S400x128_S128x128_S400x128_1_0_0_1_n_n.contr.Idx) : (dot_S400x128_S128x128_S400x128_1_0_0_1_n_n.rhsIdx i q 0).val = (q ⟨0, by decide⟩).val :=
  dot_S400x128_S128x128_S400x128_1_0_0_1_n_n.rhsIdx_val_of_single rfl i q
theorem mmW_r1 (i : S400x128.Idx) (q : dot_S400x128_S128x128_S400x128_1_0_0_1_n_n.contr.Idx) : (dot_S400x128_S128x128_S400x128_1_0_0_1_n_n.rhsIdx i q 1).val = (i 1).val := by
  unfold DotDims.rhsIdx
  rw [dif_neg (show ¬(1 : Fin S128x128.rank) ∈ dot_S400x128_S128x128_S400x128_1_0_0_1_n_n.rhsBatch by decide), dif_pos (show (1 : Fin S128x128.rank) ∈ dot_S400x128_S128x128_S400x128_1_0_0_1_n_n.rhsNonContracting by decide)]
  rfl
/-- The left operand's index for output index `i` and contraction coordinate `k`: row `i 0`, column `k`. -/
abbrev mmW_li (i : S400x128.Idx) (k : Fin 128) : S400x128.Idx := fun a => match a with
  | ⟨0, _⟩ => ⟨(i 0).val, (i 0).isLt⟩
  | ⟨1, _⟩ => ⟨k.val, k.isLt⟩
/-- The right operand's: row `k`, column `i 1`. -/
abbrev mmW_ri (i : S400x128.Idx) (k : Fin 128) : S128x128.Idx := fun a => match a with
  | ⟨0, _⟩ => ⟨k.val, k.isLt⟩
  | ⟨1, _⟩ => ⟨(i 1).val, (i 1).isLt⟩
/-- The matrix unit's product into a zero accumulator, at an index, is the plain sum over the contracted axis. -/
theorem mmW_apply (a : FVec Ideal S400x128 .f32) (b : FVec Ideal S128x128 .f32) (i : S400x128.Idx) :
    matmul (F := Ideal) dot_S400x128_S128x128_S400x128_1_0_0_1_n_n none a b (constant S400x128 .f32 0x00000000#32) i = ∑ k : Fin 128, a (mmW_li i k) * b (mmW_ri i k) := by
  simp only [matmul]
  rw [Ideal.matmul_constant_zero_apply, ← Equiv.sum_comp (ValueIdx.contrEquiv1 dot_S400x128_S128x128_S400x128_1_0_0_1_n_n 128 rfl rfl).symm]
  refine Finset.sum_congr rfl fun k _ => ?_
  have hk := ValueIdx.contrEquiv1_symm_val dot_S400x128_S128x128_S400x128_1_0_0_1_n_n 128 rfl rfl k
  have el : dot_S400x128_S128x128_S400x128_1_0_0_1_n_n.lhsIdx i ((ValueIdx.contrEquiv1 dot_S400x128_S128x128_S400x128_1_0_0_1_n_n 128 rfl rfl).symm k) = mmW_li i k := funext fun a => Fin.ext (by
    match a with
    | ⟨0, _⟩ => exact mmW_l0 _ _
    | ⟨1, _⟩ => exact (mmW_l1 _ _).trans hk)
  have er : dot_S400x128_S128x128_S400x128_1_0_0_1_n_n.rhsIdx i ((ValueIdx.contrEquiv1 dot_S400x128_S128x128_S400x128_1_0_0_1_n_n 128 rfl rfl).symm k) = mmW_ri i k := funext fun a => Fin.ext (by
    match a with
    | ⟨0, _⟩ => exact (mmW_r0 _ _).trans hk
    | ⟨1, _⟩ => exact mmW_r1 _ _)
  rw [el, er]

/-! ### `dot_S10000x128_S128x128_S10000x128_1_0_0_1_n_n` -/

theorem mmX_l0 (i : S10000x128.Idx) (q : dot_S10000x128_S128x128_S10000x128_1_0_0_1_n_n.contr.Idx) : (dot_S10000x128_S128x128_S10000x128_1_0_0_1_n_n.lhsIdx i q 0).val = (i 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl
theorem mmX_l1 (i : S10000x128.Idx) (q : dot_S10000x128_S128x128_S10000x128_1_0_0_1_n_n.contr.Idx) : (dot_S10000x128_S128x128_S10000x128_1_0_0_1_n_n.lhsIdx i q 1).val = (q ⟨0, by decide⟩).val :=
  dot_S10000x128_S128x128_S10000x128_1_0_0_1_n_n.lhsIdx_val_of_single rfl i q
theorem mmX_r0 (i : S10000x128.Idx) (q : dot_S10000x128_S128x128_S10000x128_1_0_0_1_n_n.contr.Idx) : (dot_S10000x128_S128x128_S10000x128_1_0_0_1_n_n.rhsIdx i q 0).val = (q ⟨0, by decide⟩).val :=
  dot_S10000x128_S128x128_S10000x128_1_0_0_1_n_n.rhsIdx_val_of_single rfl i q
theorem mmX_r1 (i : S10000x128.Idx) (q : dot_S10000x128_S128x128_S10000x128_1_0_0_1_n_n.contr.Idx) : (dot_S10000x128_S128x128_S10000x128_1_0_0_1_n_n.rhsIdx i q 1).val = (i 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl
/-- The left operand's index for output index `i` and contraction coordinate `k`: row `i 0`, column `k`. -/
abbrev mmX_li (i : S10000x128.Idx) (k : Fin 128) : S10000x128.Idx := fun a => match a with
  | ⟨0, _⟩ => ⟨(i 0).val, (i 0).isLt⟩
  | ⟨1, _⟩ => ⟨k.val, k.isLt⟩
/-- The right operand's: row `k`, column `i 1`. -/
abbrev mmX_ri (i : S10000x128.Idx) (k : Fin 128) : S128x128.Idx := fun a => match a with
  | ⟨0, _⟩ => ⟨k.val, k.isLt⟩
  | ⟨1, _⟩ => ⟨(i 1).val, (i 1).isLt⟩
/-- The matrix unit's product into a zero accumulator, at an index, is the plain sum over the contracted axis. -/
theorem mmX_apply (a : FVec Ideal S10000x128 .f32) (b : FVec Ideal S128x128 .f32) (i : S10000x128.Idx) :
    matmul (F := Ideal) dot_S10000x128_S128x128_S10000x128_1_0_0_1_n_n none a b (constant S10000x128 .f32 0x00000000#32) i = ∑ k : Fin 128, a (mmX_li i k) * b (mmX_ri i k) := by
  simp only [matmul]
  rw [Ideal.matmul_constant_zero_apply, ← Equiv.sum_comp (ValueIdx.contrEquiv1 dot_S10000x128_S128x128_S10000x128_1_0_0_1_n_n 128 rfl rfl).symm]
  refine Finset.sum_congr rfl fun k _ => ?_
  have hk := ValueIdx.contrEquiv1_symm_val dot_S10000x128_S128x128_S10000x128_1_0_0_1_n_n 128 rfl rfl k
  have el : dot_S10000x128_S128x128_S10000x128_1_0_0_1_n_n.lhsIdx i ((ValueIdx.contrEquiv1 dot_S10000x128_S128x128_S10000x128_1_0_0_1_n_n 128 rfl rfl).symm k) = mmX_li i k := funext fun a => Fin.ext (by
    match a with
    | ⟨0, _⟩ => exact mmX_l0 _ _
    | ⟨1, _⟩ => exact (mmX_l1 _ _).trans hk)
  have er : dot_S10000x128_S128x128_S10000x128_1_0_0_1_n_n.rhsIdx i ((ValueIdx.contrEquiv1 dot_S10000x128_S128x128_S10000x128_1_0_0_1_n_n 128 rfl rfl).symm k) = mmX_ri i k := funext fun a => Fin.ext (by
    match a with
    | ⟨0, _⟩ => exact (mmX_r0 _ _).trans hk
    | ⟨1, _⟩ => exact mmX_r1 _ _)
  rw [el, er]

end Cert.KernelIdeal.Dots

end
-- ==== Proof.KSpec.lean ====
/-
  The kernel's three payloads against the reference's stages, over the extended reals.

  With `s1 = x · W1`, a block of 400 rows of `g` starting at row `r0` gives the rows `r0 … r0 + 399` of
  `relu (g · s1 + b1) · W2` (the second payload) and of `g · s2 + b2` (the third): every entry is the same sum of
  products on both sides, the kernel's over a block's row and the reference's over the array's row `r0 + y`, so no
  law of the extended reals is needed beyond reading both sides at an index.
-/
import proofs.«141898_g57621281243476_cont_9to1c4b_629_17_alg».proof.Proof.KDots
import proofs.«141898_g57621281243476_cont_9to1c4b_629_17_alg».proof.Proof.Gen.KernelIdeal.Skeleton
import proofs.«141898_g57621281243476_cont_9to1c4b_629_17_alg».proof.Proof.Gen.ReferenceIdeal.Read
import Idealize.ShloMosaic.Lib.Pipeline.Value
import Idealize.ShloMosaic.Lib.ValueIdx
import Idealize.ShloMosaic.Lib.ValueLayout

noncomputable section

open scoped BigOperators

namespace Cert.KernelIdeal.Spec

open Cert.KernelIdeal Cert.KernelIdeal.Gen Cert.KernelIdeal.Dots Idealize.ShloMosaic Idealize.ShloMosaic.TcCoe Cert.ReferenceIdeal.Read

/-- Row `r`, column `q` of a 10000 × 128 array. -/
abbrev at128 (r : Fin 10000) (q : Fin 128) : S10000x128.Idx := fun a => match a with
  | ⟨0, _⟩ => r
  | ⟨1, _⟩ => q
/-- Row `r`, column `p` of the 10000 × 10000 array. -/
abbrev atG (r : Fin 10000) (p : Fin 10000) : S10000x10000.Idx := fun a => match a with
  | ⟨0, _⟩ => r
  | ⟨1, _⟩ => p
/-- Column `l` of a 1 × 128 row. -/
abbrev atRow (l : Fin 128) : S1x128.Idx := fun a => match a with
  | ⟨0, _⟩ => ⟨0, Nat.one_pos⟩
  | ⟨1, _⟩ => l
/-- Entry `l` of a 128-vector. -/
abbrev atVec (l : Fin 128) : S128.Idx := fun a => match a with
  | ⟨0, _⟩ => l

/-- The first payload is the reference's first product: the same contraction of `x` and `W1`. -/
theorem pay1_eq (x : FVec Ideal S10000x128 .f32) (w1 : FVec Ideal S128x128 .f32) :
    k0_pay1 (F := Ideal) x w1 = val_main_v0 (F := Ideal) x w1 := by
  funext i
  unfold k0_pay1
  try dsimp only
  rw [shapeCast_self, mmX_apply, val_main_v0_apply]
  rfl

/-- A broadcast row read at an index of the block: the row's entry at the index's column. -/
theorem bias_at (b : FVec Ideal S1x128 .f32) (y : S400x128.Idx) :
    broadcastTo S400x128 (shapeCast S1x128 b shapeCasts_S1x128_S1x128) broadcasts_S1x128_S400x128 y = b (atRow ⟨(y 1).val, (y 1).isLt⟩) := by
  rw [shapeCast_self]
  exact broadcastTo_apply b broadcasts_S1x128_S400x128 y (atRow ⟨(y 1).val, (y 1).isLt⟩) (fun a => match a with
    | ⟨0, _⟩ => by show 0 = if (1 : Nat) = 1 then 0 else _; rw [if_pos rfl]
    | ⟨1, _⟩ => by show (y 1).val = if (128 : Nat) = 1 then 0 else (y 1).val; rw [if_neg (by decide)])

variable (gA : FVec Ideal S10000x10000 .f32) (x : FVec Ideal S10000x128 .f32) (w1 : FVec Ideal S128x128 .f32)
  (b1A : FVec Ideal S128 .f32) (w2 : FVec Ideal S128x128 .f32) (b2A : FVec Ideal S128 .f32)

/-- The second payload on a block of 400 rows of `g` starting at row `r0`: rows `r0 …` of the reference's second
    support `relu (g · s1 + b1) · W2`. -/
theorem pay2_at (gblk : FVec Ideal S400x10000 .f32) (b1row : FVec Ideal S1x128 .f32) (r0 : ℕ) (hr0 : r0 + 400 ≤ 10000)
    (hg : ∀ yy : S400x10000.Idx, gblk yy = gA (atG ⟨r0 + (yy 0).val, by have := (yy 0).isLt; have : (yy 0).val < 400 := this; omega⟩ ⟨(yy 1).val, (yy 1).isLt⟩))
    (hb : ∀ l : Fin 128, b1row (atRow l) = b1A (atVec l)) (y : S400x128.Idx) :
    k0_pay2 (F := Ideal) gblk (val_main_v0 (F := Ideal) x w1) b1row w2 y
      = val_main_v7 (F := Ideal) gA x w1 b1A w2 (at128 ⟨r0 + (y 0).val, by have := (y 0).isLt; have : (y 0).val < 400 := this; omega⟩ ⟨(y 1).val, (y 1).isLt⟩) := by
  unfold k0_pay2
  try dsimp only
  rw [shapeCast_self, mmW_apply, val_main_v7_apply]
  refine Finset.sum_congr rfl fun l _ => ?_
  refine congrArg₂ (· * ·) ?_ rfl
  rw [val_main_v6_apply, val_main_v4_apply, val_main_v1_apply, val_main_v3_apply, val_main_v2_apply, val_main_v5_apply, val_main_cst_apply]
  rw [ValueIdx.maximumf_apply, ValueIdx.addf_apply, mmG_apply, bias_at, ValueIdx.broadcast_apply]
  refine congrArg₂ max (congrArg₂ (· + ·) (Finset.sum_congr rfl fun p _ => ?_) ?_) rfl
  · refine congrArg₂ (· * ·) ?_ rfl
    exact hg _
  · exact hb _

/-- The third payload on a block of 400 rows of `g` starting at row `r0`, with the whole second support: rows
    `r0 …` of the reference's result `g · s2 + b2`. -/
theorem pay3_at (gblk : FVec Ideal S400x10000 .f32) (b2row : FVec Ideal S1x128 .f32) (r0 : ℕ) (hr0 : r0 + 400 ≤ 10000)
    (hg : ∀ yy : S400x10000.Idx, gblk yy = gA (atG ⟨r0 + (yy 0).val, by have := (yy 0).isLt; have : (yy 0).val < 400 := this; omega⟩ ⟨(yy 1).val, (yy 1).isLt⟩))
    (hb : ∀ l : Fin 128, b2row (atRow l) = b2A (atVec l)) (y : S400x128.Idx) :
    k0_pay3 (F := Ideal) gblk (val_main_v7 (F := Ideal) gA x w1 b1A w2) b2row y
      = val_main_v11 (F := Ideal) gA x w1 b1A w2 b2A (at128 ⟨r0 + (y 0).val, by have := (y 0).isLt; have : (y 0).val < 400 := this; omega⟩ ⟨(y 1).val, (y 1).isLt⟩) := by
  unfold k0_pay3
  try dsimp only
  rw [val_main_v11_apply, val_main_v8_apply, val_main_v10_apply, val_main_v9_apply]
  rw [ValueIdx.addf_apply, mmG_apply, bias_at]
  refine congrArg₂ (· + ·) (Finset.sum_congr rfl fun p _ => ?_) ?_
  · refine congrArg₂ (· * ·) ?_ rfl
    exact hg _
  · exact hb _

end Cert.KernelIdeal.Spec

end
-- ==== Proof.KBridge.lean ====
/-
  What the idealized kernel's result array holds after the run, over the extended reals: the reference's result of
  the same argument arrays.

  The blocks the body is handed are read off the arrays as the region finds them: `x`, `W1`, `W2` whole; `b1`
  and `b2` as rows (reshaped by the host before the region); the block of `g` at point `t` its rows
  `400 u … 400 u + 399`, `u = t` in the first phase and `u = 49 - t` in the second. So the first scratch holds
  the reference's `x · W1`, the second its `relu (g · s1 + b1) · W2` row block by row block, and the block written
  back at point `t ≥ 25` is rows `400 (49 - t) …` of the reference's result. Those 25 blocks tile the result array.
-/
import proofs.«141898_g57621281243476_cont_9to1c4b_629_17_alg».proof.Proof.KBody
import proofs.«141898_g57621281243476_cont_9to1c4b_629_17_alg».proof.Proof.KSpec

set_option maxRecDepth 16384

noncomputable section

open scoped BigOperators

namespace Cert.KernelIdeal.Bridge

open Idealize.ShloMosaic Idealize.ShloMosaic.TcCoe Idealize.ShloMosaic.Tactic
open Idealize.SL Idealize.SL.Sem
open Idealize.ShloMosaic.Pipeline (Dat Cfg Window)
open Cert.KernelIdeal Cert.KernelIdeal.Gen Cert.KernelIdeal.Body Cert.KernelIdeal.Spec Cert.ReferenceIdeal.Read

variable (m : (ℓ : Loc nD τ sig) → Buf (Elt Ideal) ℓ) (ρ : Dev nD → PrngReg)

/-! ## The argument arrays, and the reference's result of them -/

abbrev gA (c : Dev nD) : FVec Ideal S10000x10000 .f32 := m ((c : Thread nD τ).loc main_arg0)
abbrev xA (c : Dev nD) : FVec Ideal S10000x128 .f32 := m ((c : Thread nD τ).loc main_arg1)
abbrev w1A (c : Dev nD) : FVec Ideal S128x128 .f32 := m ((c : Thread nD τ).loc main_arg2)
abbrev b1A (c : Dev nD) : FVec Ideal S128 .f32 := m ((c : Thread nD τ).loc main_arg3)
abbrev w2A (c : Dev nD) : FVec Ideal S128x128 .f32 := m ((c : Thread nD τ).loc main_arg4)
abbrev b2A (c : Dev nD) : FVec Ideal S128 .f32 := m ((c : Thread nD τ).loc main_arg5)

/-- The reference's result: `g · (relu (g · (x · W1) + b1) · W2) + b2`, as its last stage. -/
def G (c : Dev nD) : FVec Ideal S10000x128 .f32 :=
  val_main_v11 (F := Ideal) (gA m c) (xA m c) (w1A m c) (b1A m c) (w2A m c) (b2A m c)

/-! ## The windows' index maps over the grid -/

theorem idxW : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = (if t.val < 25 then t.val else 49 - t.val) ∧ win0_5.index t (1 : Fin 2) = 0
    ∧ win0_6.index t (0 : Fin 2) = (if t.val < 25 then 24 else 49 - t.val) ∧ win0_6.index t (1 : Fin 2) = 0 :=
  (by decide +kernel : ∀ t : Fin grid0.N, _)

/-- The row block of `g` point `t` is handed. -/
def gRow (t : Fin cfg0.N) : ℕ := if t.val < 25 then t.val else 49 - t.val

theorem gRow_lt (t : Fin cfg0.N) : 400 * gRow t + 400 ≤ 10000 := by
  have hN : t.val < 50 := lt_of_lt_of_eq t.isLt cfgN
  unfold gRow; split <;> omega

/-! ## The blocks, read off the arrays -/

theorem iblk0_eq (c : Dev nD) (t : Fin cfg0.N) : (iblk m c 0 t : S10000x128.Idx → EReal) = xA m c := by
  obtain ⟨e00, e01, -⟩ := idxW t
  funext yy
  show V m c main_arg1 (((cfg0.win 0).blk t).view.emb yy) = _
  rw [V_main_arg1]
  refine congrArg (m ((c : Thread nD τ).loc main_arg1)) (funext fun a => Fin.ext ?_)
  match a with
  | ⟨0, _⟩ => show win0_0.index t (0 : Fin 2) * 10000 + 1 * (yy 0).val = (yy 0).val; rw [e00]; omega
  | ⟨1, _⟩ => show win0_0.index t (1 : Fin 2) * 128 + 1 * (yy 1).val = (yy 1).val; rw [e01]; omega

theorem iblk1_eq (c : Dev nD) (t : Fin cfg0.N) : (iblk m c 1 t : S128x128.Idx → EReal) = w1A m c := by
  obtain ⟨-, -, e10, e11, -⟩ := idxW t
  funext yy
  show V m c main_arg2 (((cfg0.win 1).blk t).view.emb yy) = _
  rw [V_main_arg2]
  refine congrArg (m ((c : Thread nD τ).loc main_arg2)) (funext fun a => Fin.ext ?_)
  match a with
  | ⟨0, _⟩ => show win0_1.index t (0 : Fin 2) * 128 + 1 * (yy 0).val = (yy 0).val; rw [e10]; omega
  | ⟨1, _⟩ => show win0_1.index t (1 : Fin 2) * 128 + 1 * (yy 1).val = (yy 1).val; rw [e11]; omega

theorem iblk3_eq (c : Dev nD) (t : Fin cfg0.N) : (iblk m c 3 t : S128x128.Idx → EReal) = w2A m c := by
  obtain ⟨-, -, -, -, -, -, e30, e31, -⟩ := idxW t
  funext yy
  show V m c main_arg4 (((cfg0.win 3).blk t).view.emb yy) = _
  rw [V_main_arg4]
  refine congrArg (m ((c : Thread nD τ).loc main_arg4)) (funext fun a => Fin.ext ?_)
  match a with
  | ⟨0, _⟩ => show win0_3.index t (0 : Fin 2) * 128 + 1 * (yy 0).val = (yy 0).val; rw [e30]; omega
  | ⟨1, _⟩ => show win0_3.index t (1 : Fin 2) * 128 + 1 * (yy 1).val = (yy 1).val; rw [e31]; omega

/-- The host reshapes `b1` into a row before the region. -/
theorem V_v0 (c : Dev nD) : (V m c main_v0 : S1x128.Idx → EReal) = shapeCast S1x128 (b1A m c) shapeCasts_S128_S1x128 := by
  dsimp only [V, hostOps0]; after_results; rfl
/-- And `b2`. -/
theorem V_v1 (c : Dev nD) : (V m c main_v1 : S1x128.Idx → EReal) = shapeCast S1x128 (b2A m c) shapeCasts_S128_S1x128 := by
  dsimp only [V, hostOps0]; after_results; rfl

/-- A 128-vector reshaped into a row, at a column: the vector's entry. -/
theorem row_at (b : FVec Ideal S128 .f32) (l : Fin 128) : shapeCast S1x128 b shapeCasts_S128_S1x128 (atRow l) = b (atVec l) :=
  shapeCast_apply b shapeCasts_S128_S1x128 (atRow l) (atVec l) (by
    rw [Shape.rowMajor_val_two, Shape.rowMajor_val_one]; show l.val = 0 * 128 + l.val; omega)

theorem iblk2_at (c : Dev nD) (t : Fin cfg0.N) (l : Fin 128) : iblk m c 2 t (atRow l) = b1A m c (atVec l) := by
  obtain ⟨-, -, -, -, e20, e21, -⟩ := idxW t
  have e : ((cfg0.win 2).blk t).view.emb (atRow l) = atRow l := funext fun a => Fin.ext (by
    match a with
    | ⟨0, _⟩ => show win0_2.index t (0 : Fin 2) * 1 + 1 * 0 = 0; rw [e20]
    | ⟨1, _⟩ => show win0_2.index t (1 : Fin 2) * 128 + 1 * l.val = l.val; rw [e21]; omega)
  show V m c main_v0 (((cfg0.win 2).blk t).view.emb (atRow l)) = _
  rw [e, V_v0, row_at]

theorem iblk4_at (c : Dev nD) (t : Fin cfg0.N) (l : Fin 128) : iblk m c 4 t (atRow l) = b2A m c (atVec l) := by
  obtain ⟨-, -, -, -, -, -, -, -, e40, e41, -⟩ := idxW t
  have e : ((cfg0.win 4).blk t).view.emb (atRow l) = atRow l := funext fun a => Fin.ext (by
    match a with
    | ⟨0, _⟩ => show win0_4.index t (0 : Fin 2) * 1 + 1 * 0 = 0; rw [e40]
    | ⟨1, _⟩ => show win0_4.index t (1 : Fin 2) * 128 + 1 * l.val = l.val; rw [e41]; omega)
  show V m c main_v1 (((cfg0.win 4).blk t).view.emb (atRow l)) = _
  rw [e, V_v1, row_at]

/-- The block of `g` at point `t`: its rows `400 u …`, `u` the point's row block. -/
theorem iblk5_at (c : Dev nD) (t : Fin cfg0.N) (yy : S400x10000.Idx) :
    iblk m c 5 t yy = gA m c (atG ⟨400 * gRow t + (yy 0).val, by have := gRow_lt t; have : (yy 0).val < 400 := (yy 0).isLt; omega⟩ ⟨(yy 1).val, (yy 1).isLt⟩) := by
  obtain ⟨-, -, -, -, -, -, -, -, -, -, e50, e51, -⟩ := idxW t
  show V m c main_arg0 (((cfg0.win 5).blk t).view.emb yy) = _
  rw [V_main_arg0]
  refine congrArg (m ((c : Thread nD τ).loc main_arg0)) (funext fun a => Fin.ext ?_)
  match a with
  | ⟨0, _⟩ => show win0_5.index t (0 : Fin 2) * 400 + 1 * (yy 0).val = 400 * gRow t + (yy 0).val; rw [e50]; unfold gRow; omega
  | ⟨1, _⟩ => show win0_5.index t (1 : Fin 2) * 10000 + 1 * (yy 1).val = (yy 1).val; rw [e51]; omega

/-! ## The two scratch buffers' values are the reference's stages -/

theorem S1_eq (c : Dev nD) : S1 m c = val_main_v0 (F := Ideal) (xA m c) (w1A m c) := by
  unfold S1
  rw [iblk0_eq, iblk1_eq]
  exact pay1_eq _ _

theorem S2_eq (c : Dev nD) : S2 m c = val_main_v7 (F := Ideal) (gA m c) (xA m c) (w1A m c) (b1A m c) (w2A m c) := by
  funext j
  have hj0 : (j 0).val < 10000 := ValueIdx.idx2_lt0 j
  have hk : (rowBlk j).val < 25 := by show (j 0).val / 400 < 25; omega
  have hrow : gRow (rowBlk j) = (j 0).val / 400 := by unfold gRow; rw [if_pos hk]; rfl
  unfold S2 P2
  rw [S1_eq, iblk3_eq]
  refine (pay2_at (gA m c) (xA m c) (w1A m c) (b1A m c) (w2A m c) (iblk m c 5 (rowBlk j)) (iblk m c 2 (rowBlk j)) (400 * gRow (rowBlk j)) (gRow_lt _)
    (fun yy => iblk5_at m c (rowBlk j) yy) (fun l => iblk2_at m c (rowBlk j) l) (rowIn j)).trans ?_
  refine congrArg _ (funext fun a => Fin.ext ?_)
  match a with
  | ⟨0, _⟩ => show 400 * gRow (rowBlk j) + (j 0).val % 400 = (j 0).val; rw [hrow]; omega
  | ⟨1, _⟩ => rfl

/-- What a point of the second phase stores is its rows of the reference's result. -/
theorem P3_at (c : Dev nD) (t : Fin cfg0.N) (y : S400x128.Idx) :
    P3 m c t y = G m c (at128 ⟨400 * gRow t + (y 0).val, by have := gRow_lt t; have : (y 0).val < 400 := (y 0).isLt; omega⟩ ⟨(y 1).val, (y 1).isLt⟩) := by
  unfold P3 G
  rw [S2_eq]
  exact pay3_at (gA m c) (xA m c) (w1A m c) (b1A m c) (w2A m c) (b2A m c) (iblk m c 5 t) (iblk m c 4 t) (400 * gRow t) (gRow_lt t)
    (fun yy => iblk5_at m c t yy) (fun l => iblk4_at m c t l) y

/-! ## From the blocks written back to the result array -/

/-- What point `t` writes back is block `t` of the reference's result. -/
theorem flushed_eq (c : Dev nD) (t : Fin cfg0.N) (hf : (cfg0.win 6).flush t = true) :
    (dats m 0 c).flushed 6 t = ((cfg0.win 6).blk t).view.read (Elt Ideal) (G m c) := by
  have hN : t.val < 50 := lt_of_lt_of_eq t.isLt cfgN
  have hge : 25 ≤ t.val := by
    by_contra h
    rw [noFlush6 t (by omega)] at hf
    exact Bool.false_ne_true hf
  obtain ⟨-, -, -, -, -, -, -, -, -, -, -, -, e60, e61⟩ := idxW t
  show (cfg0.win 6).cut (grid0.coords t) ((dats m 0 c).after 6 t) = _
  rw [after6]
  funext y
  show P3 m c t y = G m c (((cfg0.win 6).blk t).view.emb y)
  rw [P3_at]
  refine congrArg (G m c) (funext fun a => Fin.ext ?_)
  match a with
  | ⟨0, _⟩ => show 400 * gRow t + (y 0).val = win0_6.index t (0 : Fin 2) * 400 + 1 * (y 0).val; rw [e60]; unfold gRow; rw [if_neg (by omega), if_neg (by omega)]; omega
  | ⟨1, _⟩ => show (y 1).val = win0_6.index t (1 : Fin 2) * 128 + 1 * (y 1).val; rw [e61]; omega

/-- An index of the result array is in point `t`'s block iff each coordinate is in the block's range on its axis. -/
theorem mem_blk (t : Fin cfg0.N) (i : S10000x128.Idx) :
    i ∈ ((cfg0.win 6).blk t).view.set ↔ ∀ a : Fin 2, win0_6.index t a * S400x128.size a ≤ (i a).val ∧ (i a).val < win0_6.index t a * S400x128.size a + S400x128.size a := by
  show i ∈ ((View.whole main_v2).slice (win0_6.rect t)).set ↔ _
  rw [View.set_slice_whole, Rect.mem_set_unit]
  exact Iff.rfl

/-- Every row of the result lies in the block of the second-phase point `49 - row / 400`. -/
theorem cover (i : S10000x128.Idx) : ∃ t : Fin cfg0.N, (cfg0.win 6).flush t = true ∧ i ∈ ((cfg0.win 6).blk t).view.set := by
  have hi0 : (i 0).val < 10000 := ValueIdx.idx2_lt0 i
  have hi1 : (i 1).val < 128 := ValueIdx.idx2_lt1 i
  let t : Fin cfg0.N := ⟨49 - (i 0).val / 400, by rw [cfgN]; omega⟩
  have htv : t.val = 49 - (i 0).val / 400 := rfl
  obtain ⟨-, -, -, -, -, -, -, -, -, -, -, -, e60, e61⟩ := idxW t
  refine ⟨t, flush6 t (by rw [htv]; omega), ?_⟩
  rw [mem_blk]
  intro a
  match a with
  | ⟨0, _⟩ =>
    show win0_6.index t (0 : Fin 2) * 400 ≤ (i 0).val ∧ (i 0).val < win0_6.index t (0 : Fin 2) * 400 + 400
    rw [e60, if_neg (by rw [htv]; omega), htv]; omega
  | ⟨1, _⟩ =>
    show win0_6.index t (1 : Fin 2) * 128 ≤ (i 1).val ∧ (i 1).val < win0_6.index t (1 : Fin 2) * 128 + 128
    rw [e61]; omega

/-- The result array after the run is the reference's result of the argument arrays. -/
theorem final (c : Dev nD) : (dats m 0 c).arrAt 6 cfg0.N = G m c :=
  (dats m 0 c).arrAt_eq_of_cover 6 (G m c) (fun t hf => flushed_eq m c t hf) (cover)

/-- The run of the idealized kernel, its result named. -/
theorem run : θ_run defs (onTc (τ := τ) (main (F := Ideal))) ⟨m, fun _ => 0, ρ⟩ (fun r => ∀ c : Dev nD,
      r.2.mem ((c.tc : Thread nD τ).loc main_v2) = G m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨((h c).1 6).trans (final m c),
      ((h c).1 5).trans (((dats m 0 c).arrAt_in 5 rfl _).trans ((A_eq m c 5).trans (V_main_arg0 m c))),
      ((h c).1 0).trans (((dats m 0 c).arrAt_in 0 rfl _).trans ((A_eq m c 0).trans (V_main_arg1 m c))),
      ((h c).1 1).trans (((dats m 0 c).arrAt_in 1 rfl _).trans ((A_eq m c 1).trans (V_main_arg2 m c))),
      ((h c).2 main_arg3 (Pipeline.mem_restRefs_of main_arg3 (by decide) (by decide))).trans (V_main_arg3 m c),
      ((h c).1 3).trans (((dats m 0 c).arrAt_in 3 rfl _).trans ((A_eq m c 3).trans (V_main_arg4 m c))),
      ((h c).2 main_arg5 (Pipeline.mem_restRefs_of main_arg5 (by decide) (by decide))).trans (V_main_arg5 m c)⟩)
    (run_main m ρ)

end Cert.KernelIdeal.Bridge

end
-- ==== Proof.lean ====
/-
  The two-layer graph convolution `out = g · (relu (g · (x · W1) + b1) · W2) + b2`, a Pallas kernel on a grid of 50
  points against its plain reference, equal over the extended reals.

  The kernel sweeps the 10000 × 10000 matrix `g` twice in blocks of 400 rows. Point 0 computes `s1 = x · W1` into a
  scratch buffer; each point `t < 25` fills rows `400 t … 400 t + 399` of a second scratch with
  `relu (g_t · s1 + b1) · W2`; each point `t ≥ 25` writes the output block `g_u · s2 + b2` for `u = 49 - t`. The
  reference computes the same four matrix products on whole arrays. At the ideal instance a matrix product into a zero
  accumulator and the host's contraction are the same finite sum, so every entry of the result is the same expression
  on both sides: no law of the extended reals beyond reading both sides at an index is used, and the precondition
  (finite inputs) is not opened.

  The frames of the kernel (as printed, and idealized) rest on the body obligation proved in Proof/BBody.lean and
  Proof/KBody.lean: an invariant tracks what the two scratch buffers hold between points — the first at `s1` after
  point 0, the second with its first `400 n` rows at `s2`'s after `n` points. The reference's frame is its run with
  the result dropped. The idealization rewrote nothing, so there is nothing to preserve. The value claim reads the
  kernel's result array off the frame run (Proof/KBridge.lean) and the reference's off its run.
-/
import proofs.«141898_g57621281243476_cont_9to1c4b_629_17_alg».proof.Defs
import proofs.«141898_g57621281243476_cont_9to1c4b_629_17_alg».proof.Proof.Gen.Kernel
import proofs.«141898_g57621281243476_cont_9to1c4b_629_17_alg».proof.Proof.Gen.KernelIdeal
import proofs.«141898_g57621281243476_cont_9to1c4b_629_17_alg».proof.Proof.Gen.ReferenceIdeal
import proofs.«141898_g57621281243476_cont_9to1c4b_629_17_alg».proof.Proof.Gen.Pre_finite_inputs
import proofs.«141898_g57621281243476_cont_9to1c4b_629_17_alg».proof.Proof.Gen.ReferenceIdeal.Run
import proofs.«141898_g57621281243476_cont_9to1c4b_629_17_alg».proof.Proof.Gen.ReferenceIdeal.Read
import proofs.«141898_g57621281243476_cont_9to1c4b_629_17_alg».proof.Proof.BBody
import proofs.«141898_g57621281243476_cont_9to1c4b_629_17_alg».proof.Proof.KBridge
import Idealize.ShloMosaic.Adequacy
import Idealize.ShloMosaic.Init

noncomputable section

namespace Cert.Proof

open Idealize.ShloMosaic Idealize.SL.Sem

/-- The kernel as printed runs, its arguments unchanged: the frame run of its body obligation. -/
theorem frame_k : Cert.frame_Kernel := fun m ρ _ => Cert.Kernel.Body.frame (F := Bits) m ρ

/-- The idealized kernel runs, its arguments unchanged: the same body obligation at the ideal instance. -/
theorem frame_ki : Cert.frame_KernelIdeal := fun m ρ _ => Cert.KernelIdeal.Body.frame (F := Ideal) m ρ

/-- The reference runs, its arguments unchanged: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both programs end with the reference's last stage of those arguments. -/
theorem algebraic : Cert.algebraic_KernelIdeal_ReferenceIdeal := by
  intro m ρ m' ρ' _ hagree
  refine ⟨fun c => Cert.KernelIdeal.Bridge.G m c, Cert.KernelIdeal.Bridge.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v11_eq, (hagree c).1, (hagree c).2.1, (hagree c).2.2.1, (hagree c).2.2.2.1,
    (hagree c).2.2.2.2.1, (hagree c).2.2.2.2.2]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
